-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x4096 : Shape := ⟨2, ![128, 4096]⟩
abbrev S4096x4096 : Shape := ⟨2, ![4096, 4096]⟩
abbrev S128 : Shape := ⟨1, ![128]⟩
abbrev S_ : Shape := ⟨0, ![]⟩

class Facts : Prop where
  bcast_S_S128x4096 : S_.BroadcastsInDim S128x4096 (![] : Fin 0 → Fin S128x4096.rank)
  reducesTo_S128x4096_S_d0_1 : S128x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S128x4096 .f32) (main_arg1 : FVec F S4096x4096 .f32) (main_arg2 : FVec F S128 .f32) (main_arg3 : FVec F S128 .f32) : IVec S_ 1 :=
  let main_v0 : FVec F S128x4096 .f32 := Host.absf main_arg0
  let main_cst : FVec F S_ .f32 := constant S_ .f32 0x7F800000#32
  let main_v1 : FVec F S128x4096 .f32 := broadcastInDim S128x4096 ![] bcast_S_S128x4096 main_cst
  let main_v2 : IVec S128x4096 1 := cmpf .olt main_v0 main_v1
  let main_c : IVec S_ 1 := constantI S_ 1 1#1
  let main_v3 : IVec S_ 1 := (fun x v => Host.reduce IntOp.andi x v reducesTo_S128x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S128x4096 : Shape := ⟨2, ![128, 4096]⟩
abbrev S4096x4096 : Shape := ⟨2, ![4096, 4096]⟩
abbrev S128 : Shape := ⟨1, ![128]⟩
abbrev S128x1 : Shape := ⟨2, ![128, 1]⟩
abbrev S128x1024 : Shape := ⟨2, ![128, 1024]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 16
  | .vmem => 17
  | .smem => 0
  | _ => 0

abbrev bufTy : (tb : Table) → Fin (tcTables nBuf tb) → BufTy
  | .hbm, ⟨0, _⟩ => ⟨S128x4096, .f32⟩
  | .hbm, ⟨1, _⟩ => ⟨S4096x4096, .f32⟩
  | .hbm, ⟨2, _⟩ => ⟨S128, .f32⟩
  | .hbm, ⟨3, _⟩ => ⟨S128, .f32⟩
  | .hbm, ⟨4, _⟩ => ⟨S128x1, .f32⟩
  | .hbm, ⟨5, _⟩ => ⟨S128x4096, .f32⟩
  | .hbm, ⟨6, _⟩ => ⟨S128x4096, .f32⟩
  | .hbm, ⟨7, _⟩ => ⟨S128x4096, .bf16⟩
  | .hbm, ⟨8, _⟩ => ⟨S128x1, .f32⟩
  | .hbm, ⟨9, _⟩ => ⟨S128x4096, .f32⟩
  | .hbm, ⟨10, _⟩ => ⟨S128x4096, .f32⟩
  | .hbm, ⟨11, _⟩ => ⟨S128x4096, .bf16⟩
  | .hbm, ⟨12, _⟩ => ⟨S4096x4096, .bf16⟩
  | .hbm, ⟨13, _⟩ => ⟨S4096x4096, .f32⟩
  | .hbm, ⟨14, _⟩ => ⟨S4096x4096, .bf16⟩
  | .hbm, ⟨15, _⟩ => ⟨S4096x4096, .f32⟩
  | .local _ .vmem, ⟨0, _⟩ => ⟨S128x1024, .bf16⟩
  | .local _ .vmem, ⟨1, _⟩ => ⟨S128x1024, .bf16⟩
  | .local _ .vmem, ⟨2, _⟩ => ⟨S128x1024, .bf16⟩
  | .local _ .vmem, ⟨3, _⟩ => ⟨S128x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S1024x1024, .f32⟩
  | .local _ .vmem, ⟨8, _⟩ => ⟨S512x1024, .bf16⟩
  | .local _ .vmem, ⟨9, _⟩ => ⟨S512x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x512, .bf16⟩
  | .local _ .vmem, ⟨13, _⟩ => ⟨S1024x512, .bf16⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | _, _ => ⟨S128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨3, ![4, 4, 8], ![false, false, false]⟩

def k1_cond2 (i : grid1.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1024x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, true]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  bcast_S128_S128x1_0 : S128.BroadcastsInDim S128x1 (![0] : Fin 1 → Fin S128x1.rank)
  bcast_S128x1_S128x4096_0_1 : S128x1.BroadcastsInDim S128x4096 (![0, 1] : Fin 2 → Fin S128x4096.rank)
  bitsLt_bf16_f32 : FTy.bits .bf16 < FTy.bits .f32
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1024x1024_S1024x1024_0_0 : ∀ a, (![0, 0] : Fin 2 → Nat) a + S1024x1024.size a ≤ S1024x1024.size a
  h_S1024x1024 : 0 < S1024x1024.numel
  packedbf16_S1024x1024_S1024x1024_0_0 : (Rect.unit (s := S1024x1024) ![0, 0] S1024x1024.size inb_S1024x1024_S1024x1024_0_0).PackedRows (EltTy.packing .bf16)
  shapeCasts_S1024x1024_S1024x1024 : S1024x1024.ShapeCasts S1024x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  dot_S128x1024_S128x1024_S1024x1024_0_0_1_1_n_n_wf : DotDims.WF S128x1024 S128x1024 S1024x1024 [0] [0] [1] [1] [] []
  dot_S512x1024_S1024x512_S1024x1024_0_1_1_0_n_n_wf : DotDims.WF S512x1024 S1024x512 S1024x1024 [0] [1] [1] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S128x4096.size a
  hwx0_0 : ∀ i : grid0.Coords, EltTy.bits .bf16 = 32 ∨ (Rect.block (s := S128x4096) S128x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S128x4096.size a
  hwx0_1 : ∀ i : grid0.Coords, EltTy.bits .bf16 = 32 ∨ (Rect.block (s := S128x4096) S128x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x4096.size a
  hwx0_2 : ∀ i : grid0.Coords, EltTy.bits .bf16 = 32 ∨ (Rect.block (s := S4096x4096) S1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .f32 = 32 ∨ (Rect.block (s := S4096x4096) S1024x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S4096x4096.size a
  hwx1_0 : ∀ i : grid1.Coords, EltTy.bits .bf16 = 32 ∨ (Rect.block (s := S4096x4096) S512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .f32 = 32 ∨ (Rect.block (s := S4096x4096) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x512.size a ≤ S4096x4096.size a
  hwx1_2 : ∀ i : grid1.Coords, EltTy.bits .bf16 = 32 ∨ (Rect.block (s := S4096x4096) S1024x512.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S4096x4096.size a
  hwx1_3 : ∀ i : grid1.Coords, EltTy.bits .f32 = 32 ∨ (Rect.block (s := S4096x4096) S1024x1024.size (cc1_transform_3 i) (hinb1_3 i)).WholeWords (EltTy.packing .f32)

variable [Facts₀]

def dot_S128x1024_S128x1024_S1024x1024_0_0_1_1_n_n : DotDims S128x1024 S128x1024 S1024x1024 where
  lhsContracting := [0]
  rhsContracting := [0]
  lhsNonContracting := [1]
  rhsNonContracting := [1]
  lhsBatch := []
  rhsBatch := []
  wf := dot_S128x1024_S128x1024_S1024x1024_0_0_1_1_n_n_wf
def dot_S512x1024_S1024x512_S1024x1024_0_1_1_0_n_n : DotDims S512x1024 S1024x512 S1024x1024 where
  lhsContracting := [0]
  rhsContracting := [1]
  lhsNonContracting := [1]
  rhsNonContracting := [0]
  lhsBatch := []
  rhsBatch := []
  wf := dot_S512x1024_S1024x512_S1024x1024_0_1_1_0_n_n_wf

abbrev win0_0 : Pipeline.Window sig grid0 :=
  Pipeline.Window.ofSpec (Memref.whole main_v3) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8_0) S1024x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8_1) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v8_0) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8_1) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1024x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S128x4096 : Shape := ⟨2, ![128, 4096]⟩
abbrev S4096x4096 : Shape := ⟨2, ![4096, 4096]⟩
abbrev S128 : Shape := ⟨1, ![128]⟩
abbrev S128x1 : Shape := ⟨2, ![128, 1]⟩

abbrev nBuf : Space → Nat
  | .hbm => 15
  | .vmem => 0
  | .smem => 0
  | _ => 0

abbrev bufTy : (tb : Table) → Fin (tcTables nBuf tb) → BufTy
  | .hbm, ⟨0, _⟩ => ⟨S128x4096, .f32⟩
  | .hbm, ⟨1, _⟩ => ⟨S4096x4096, .f32⟩
  | .hbm, ⟨2, _⟩ => ⟨S128, .f32⟩
  | .hbm, ⟨3, _⟩ => ⟨S128, .f32⟩
  | .hbm, ⟨4, _⟩ => ⟨S128x1, .f32⟩
  | .hbm, ⟨5, _⟩ => ⟨S128x4096, .f32⟩
  | .hbm, ⟨6, _⟩ => ⟨S128x4096, .f32⟩
  | .hbm, ⟨7, _⟩ => ⟨S128x1, .f32⟩
  | .hbm, ⟨8, _⟩ => ⟨S128x4096, .f32⟩
  | .hbm, ⟨9, _⟩ => ⟨S128x4096, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S4096x4096, .f32⟩
  | _, _ => ⟨S128x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]

class Facts₀ : Prop where
  bcast_S128_S128x1_0 : S128.BroadcastsInDim S128x1 (![0] : Fin 1 → Fin S128x1.rank)
  bcast_S128x1_S128x4096_0_1 : S128x1.BroadcastsInDim S128x4096 (![0, 1] : Fin 2 → Fin S128x4096.rank)
  transposes_S4096x4096_S4096x4096_1_0 : S4096x4096.Transposes [1, 0] S4096x4096
  dot_S128x4096_S128x4096_S4096x4096_0_0_1_1_n_n_wf : DotDims.WF S128x4096 S128x4096 S4096x4096 [0] [0] [1] [1] [] []
  dot_S4096x4096_S4096x4096_S4096x4096_1_0_0_1_n_n_wf : DotDims.WF S4096x4096 S4096x4096 S4096x4096 [1] [0] [0] [1] [] []

variable [Facts₀]

def dot_S128x4096_S128x4096_S4096x4096_0_0_1_1_n_n : DotDims S128x4096 S128x4096 S4096x4096 where
  lhsContracting := [0]
  rhsContracting := [0]
  lhsNonContracting := [1]
  rhsNonContracting := [1]
  lhsBatch := []
  rhsBatch := []
  wf := dot_S128x4096_S128x4096_S4096x4096_0_0_1_1_n_n_wf
def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.RegionDataBits.lean ====
/-
  What the two kernel regions hold, point by point, as data the frame and the value proofs share.

  Region 0 (the scores): at grid point t every input window holds its block of the scaled queries / keys, and the
  body leaves in each of its two output windows the exponential of the product of the two blocks (once in the narrow
  format, once in the wide one).

  Region 1 (the normalisation): the grid is (i, j, k) with k the contraction tile, innermost. A scratch buffer carries
  the running total of the neighbour sum across the eight k-tiles of one output tile: it restarts from zero at
  k = 0, and after point t holds the total of the tiles 0..k (accAt). At k = 7 the body divides the score tile by
  that total into the output window; at the other points it leaves the output window alone.
-/
import proofs.«150088_j74586402063284_2_alg».proof.Proof.Gen.Kernel.Launch
import proofs.«150088_j74586402063284_2_alg».proof.Proof.Gen.Kernel.Skeleton
import proofs.«150088_j74586402063284_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when a region is entered
variable (V : (c : Dev nD) → (b : Ref sig .tc) → Buf (Elt F) ((c : Thread nD τ).loc b))

/-! ## Region 0: the scores -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Region 0's data: the inputs keep their blocks; output window 2 ends at the narrow score tile and output window 3
    at the wide one, both computed from the two input blocks of the point. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay2 (iblk0 V c 0 t) (iblk0 V c 1 t)
    | ⟨3, _⟩ => k0_pay1 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay2 (iblk0 V c 0 t) (iblk0 V c 1 t) := by dsimp only [dat0]
theorem after0_3 (c : Dev nD) (t : Fin cfg0.N) : (dat0 V c).after 3 t = k0_pay1 (iblk0 V c 0 t) (iblk0 V c 1 t) := by dsimp only [dat0]

/-! ## Region 1: the normalisation -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- THE RUNNING TOTAL. What the scratch buffer holds after the body at position n: at the first contraction tile of an
    output tile (n a multiple of 8) the product of the point's two blocks added to zero, at the others added to what
    the point before left. -/
def accAt (c : Dev nD) : (n : ℕ) → n < cfg1.N → Vec F S1024x1024 .f32
  | 0, hn => k1_pay2 (iblk1 V c 0 ⟨0, hn⟩) (iblk1 V c 2 ⟨0, hn⟩) (k1_pay1 (F := F))
  | n + 1, hn =>
    if (n + 1) % 8 = 0 then k1_pay2 (iblk1 V c 0 ⟨n + 1, hn⟩) (iblk1 V c 2 ⟨n + 1, hn⟩) (k1_pay1 (F := F))
    else k1_pay2 (iblk1 V c 0 ⟨n + 1, hn⟩) (iblk1 V c 2 ⟨n + 1, hn⟩) (accAt c n (Nat.lt_of_succ_lt hn))

/-- At the first contraction tile the total restarts from zero. -/
theorem accAt_first (c : Dev nD) (t : Fin cfg1.N) (h : t.val % 8 = 0) :
    accAt V c t.val t.isLt = k1_pay2 (iblk1 V c 0 t) (iblk1 V c 2 t) (k1_pay1 (F := F)) := by
  obtain ⟨n, hn⟩ := t
  cases n with
  | zero => rfl
  | succ n => exact if_pos h

/-- At a later contraction tile the point's product is added to what the point before left. -/
theorem accAt_next (c : Dev nD) (t : Fin cfg1.N) (h : ¬ t.val % 8 = 0) :
    accAt V c t.val t.isLt = k1_pay2 (iblk1 V c 0 t) (iblk1 V c 2 t)
      (accAt V c (t.val - 1) (Nat.lt_of_le_of_lt (Nat.sub_le _ _) t.isLt)) := by
  obtain ⟨n, hn⟩ := t
  cases n with
  | zero => exact absurd (Nat.zero_mod _) h
  | succ n => exact if_neg h

/-- The scratch buffer, as the memref the body is called with. -/
abbrev scM1 : Memref sig .tc .vmem S1024x1024 .f32 := Memref.whole cc1_scratch0

/-- A scoped buffer held whole at some contents. -/
abbrev anyAt (c : Dev nD) (b : Ref sig .tc) : sProp 𝕄 :=
  iprop(∃ f : Buf (Elt F) ((c : Thread nD τ).loc b), ((c : Thread nD τ).loc b) ↦{fullShare} f)

/-- The region's invariant before position n: before the first point every scoped buffer that is no staging buffer of
    this region at anything; afterwards the same with the scratch at the running total the point before left. -/
def PhiS (c : Dev nD) : (n : ℕ) → n ≤ cfg1.N → sProp 𝕄
  | 0, _ => Pipeline.ΦA spec1 c
  | n + 1, hn => iprop(iprop(anyAt (F := F) c cc0_stg0_0 ∗ anyAt (F := F) c cc0_stg0_1 ∗ anyAt (F := F) c cc0_stg1_0 ∗ anyAt (F := F) c cc0_stg1_1
      ∗ anyAt (F := F) c cc0_stg2_0 ∗ anyAt (F := F) c cc0_stg2_1 ∗ anyAt (F := F) c cc0_stg3_0 ∗ anyAt (F := F) c cc0_stg3_1
      ∗ owns (c : Thread nD τ) scM1 fullShare (accAt V c n hn)) ∗ (∃ r, prngReg c r))

/-- The class invariant with the scratch as a memref owned at some contents. -/
theorem PhiA1_eq (c : Dev nD) :
    (Pipeline.ΦA spec1 c : sProp 𝕄)
      = iprop(iprop(anyAt (F := F) c cc0_stg0_0 ∗ anyAt (F := F) c cc0_stg0_1 ∗ anyAt (F := F) c cc0_stg1_0 ∗ anyAt (F := F) c cc0_stg1_1
      ∗ anyAt (F := F) c cc0_stg2_0 ∗ anyAt (F := F) c cc0_stg2_1 ∗ anyAt (F := F) c cc0_stg3_0 ∗ anyAt (F := F) c cc0_stg3_1
      ∗ (∃ d, owns (c : Thread nD τ) scM1 fullShare d)) ∗ (∃ r, prngReg c r)) := by
  unfold Pipeline.ΦA; rw [scopedRest1_eq]; simp only [scM1, owns_whole]; try rfl

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(anyAt (F := F) c cc0_stg0_0 ∗ anyAt (F := F) c cc0_stg0_1 ∗ anyAt (F := F) c cc0_stg1_0 ∗ anyAt (F := F) c cc0_stg1_1
      ∗ anyAt (F := F) c cc0_stg2_0 ∗ anyAt (F := F) c cc0_stg2_1 ∗ anyAt (F := F) c cc0_stg3_0 ∗ anyAt (F := F) c cc0_stg3_1
      ∗ owns (c : Thread nD τ) scM1 fullShare (accAt V c n hn)) ∗ (∃ r, prngReg c r)) := rfl

theorem PhiS_pos (c : Dev nD) (n : ℕ) (h : n ≤ cfg1.N) (hz : n ≠ 0) :
    PhiS V c n h = iprop(iprop(anyAt (F := F) c cc0_stg0_0 ∗ anyAt (F := F) c cc0_stg0_1 ∗ anyAt (F := F) c cc0_stg1_0 ∗ anyAt (F := F) c cc0_stg1_1
      ∗ anyAt (F := F) c cc0_stg2_0 ∗ anyAt (F := F) c cc0_stg2_1 ∗ anyAt (F := F) c cc0_stg3_0 ∗ anyAt (F := F) c cc0_stg3_1
      ∗ owns (c : Thread nD τ) scM1 fullShare (accAt V c (n - 1) (by omega))) ∗ (∃ r, prngReg c r)) := by
  cases n with
  | zero => exact absurd rfl hz
  | succ n => rfl

/-- Region 1's data: the inputs keep their blocks; the output window's contents after a point are the score tile over
    the running total (read only at the points k = 7, where the window is stored and written back); the invariant
    carries the scratch. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (iblk1 V c 1 t) (accAt V c t.val t.isLt)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay3 (iblk1 V c 1 t) (accAt V c t.val t.isLt) := by dsimp only [dat1]

theorem Phi1_castSucc (c : Dev nD) (t : Fin cfg1.N) :
    (dat1 V c).Φ t.castSucc = PhiS V c t.val (Nat.le_of_lt t.isLt) := by
  dsimp only [dat1]; simp only [Fin.coe_castSucc]

theorem Phi1_succ (c : Dev nD) (t : Fin cfg1.N) :
    (dat1 V c).Φ t.succ = PhiS V c (t.val + 1) t.isLt := rfl

/-- Before the first point the invariant is the class's. -/
theorem Phi1_zero (c : Dev nD) : (dat1 V c).Φ 0 = Pipeline.ΦA spec1 c := rfl

/-- After any point but none the invariant gives the class's back: the scratch's named contents are forgotten. -/
theorem Phi1_out (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨H1, H2, H3, H4, H5, H6, H7, H8, HS⟩, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists _; iexact HS
  iexact Hg

theorem Phi1_last (c : Dev nD) : (dat1 V c).Φ (Fin.last cfg1.N) ⊢ Pipeline.ΦA spec1 c :=
  Phi1_out V c _ (by rw [Fin.val_last]; have : cfg1.N = 128 := N_1; omega)

end Cert.Kernel.Hand

end
-- ==== Proof.ContentsBits.lean ====
/-
  What every unscoped buffer holds at each boundary of the program: the launch memory, then the first host stretch
  (the scaled queries and keys), then region 0's two score arrays as its write-backs leave them, then the second host
  stretch (the adjacency in the narrow format), then region 1's result array as its write-backs leave it.  No host
  operation and no region writes an argument array, so each argument is read back through the whole fold unchanged.
-/
import proofs.«150088_j74586402063284_2_alg».proof.Proof.RegionDataBits
import proofs.«150088_j74586402063284_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core c's buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At region 0's exit: its arrays at what the write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: its arrays at what the write-backs leave, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## A buffer that neither host stretch writes and no region stages keeps its launch contents -/

theorem W4_untouched (c : Dev nD) (b : Ref sig .tc) (h0 : b ∉ hostOps0_W) (h1 : b ∉ hostOps1_W)
    (hr0 : ∀ w, Pipeline.arrRef spec0 w ≠ b) (hr1 : ∀ w, Pipeline.arrRef spec1 w ≠ b) :
    W4 m ρ c (Proc.devRef .tc b) = m ((c : Thread nD τ).loc b) :=
  calc W4 m ρ c (Proc.devRef .tc b)
    _ = W3 m ρ c (Proc.devRef .tc b) := W4_of_ne m ρ c b hr1
    _ = W2 m ρ c (Proc.devRef .tc b) := StableHlo.after_of_writes_sub hostOps1 _ hostOps1_writes h1
    _ = W1 m ρ c (Proc.devRef .tc b) := W2_of_ne m ρ c b hr0
    _ = W0 m ρ c (Proc.devRef .tc b) := StableHlo.after_of_writes_sub hostOps0 _ hostOps0_writes h0
    _ = m ((c : Thread nD τ).loc b) := rfl

theorem W4_main_arg0 (c : Dev nD) : W4 m ρ c (Proc.devRef .tc main_arg0) = m ((c : Thread nD τ).loc main_arg0) :=
  W4_untouched m ρ c main_arg0 (by decide) (by decide) (by decide) (by decide)
theorem W4_main_arg1 (c : Dev nD) : W4 m ρ c (Proc.devRef .tc main_arg1) = m ((c : Thread nD τ).loc main_arg1) :=
  W4_untouched m ρ c main_arg1 (by decide) (by decide) (by decide) (by decide)
theorem W4_main_arg2 (c : Dev nD) : W4 m ρ c (Proc.devRef .tc main_arg2) = m ((c : Thread nD τ).loc main_arg2) :=
  W4_untouched m ρ c main_arg2 (by decide) (by decide) (by decide) (by decide)
theorem W4_main_arg3 (c : Dev nD) : W4 m ρ c (Proc.devRef .tc main_arg3) = m ((c : Thread nD τ).loc main_arg3) :=
  W4_untouched m ρ c main_arg3 (by decide) (by decide) (by decide) (by decide)

/-- The result buffer ends at region 1's output array as its write-backs leave it. -/
theorem W4_main_v10 (c : Dev nD) : W4 m ρ c (Proc.devRef .tc main_v10) = (dat1 (V3 m ρ) c).arrAt 3 cfg1.N :=
  W4_arr m ρ c 3

end Cert.Kernel.Hand

end
-- ==== Proof.RunBits.lean ====
/-
  The whole program as a run: the host stretches and the two kernel regions in order, each region entered from what
  the stretch before it left.  A region takes its windows' arrays out of the unscoped buffers, runs its pipeline
  (body obligation, invariant in and out), and puts the arrays back at what its write-backs leave.  Every weakly
  fair execution terminates, nothing faults, and at the end every unscoped buffer holds the last boundary's
  contents: the arguments as launched, the result buffer at region 1's output array.
-/
import proofs.«150088_j74586402063284_2_alg».proof.Proof.ContentsBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)

/-- A host stretch as a segment over the unscoped references. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the owes: every unscoped buffer at the last boundary's contents. -/
abbrev Tₙ (c : Dev nD) : sProp 𝕄 := iprop(StableHlo.held (c : Thread nD τ) (Pipeline.ucRefs τ sig) (W4 m ρ c) ∗ ∃ r, prngReg c r)

/-- The two body obligations (each proved in its own module), at every entry contents and on every core. -/
abbrev HB0 (F : FTy → Type) [FloatOps F] : Prop :=
  ∀ (V : (c : Dev nD) → (b : Ref sig .tc) → Buf (Elt F) ((c : Thread nD τ).loc b)) (c : Dev nD),
    BodyObligation (dat0 (F := F) V c) (defs₀ (F := F)) Variants.none () Set.univ
abbrev HB1 (F : FTy → Type) [FloatOps F] : Prop :=
  ∀ (V : (c : Dev nD) → (b : Ref sig .tc) → Buf (Elt F) ((c : Thread nD τ).loc b)) (c : Dev nD),
    BodyObligation (dat1 (F := F) V c) (defs₀ (F := F)) Variants.none () Set.univ

set_option backward.isDefEq.respectTransparency.types false in
/-- Region 0 over the thread state: entered from every unscoped buffer at W1, left at W2. -/
def reg0 (hb0 : HB0 F) : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (hb0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W3, left at W4.  Its invariant is the
    class's before the first point and gives the class's back after the last (the scratch's contents forgotten). -/
def reg1 (hb1 : HB1 F) : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (hb1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from Phi1_last (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's four segments in order. -/
abbrev segs (hb0 : HB0 F) (hb1 : HB1 F) : List (Pipeline.Seg (pcfgs (F := F)) adm (pdats m ρ) () defs₀ 𝒱₀ L lv) :=
  [ .host (hseg hostOps0 hostOps0_sub hostOps0_fresh (W0 m ρ)),
    .region (reg0 m ρ hb0),
    .host (hseg hostOps1 hostOps1_sub hostOps1_fresh (W2 m ρ)),
    .region (reg1 m ρ hb1) ]

theorem main_run (hb0 : HB0 F) (hb1 : HB1 F) (c : Dev nD) : main (F := F) c = Pipeline.Seg.run (segs m ρ hb0 hb1) := (main_chain c).trans (by chain_rfl)

set_option backward.isDefEq.respectTransparency.types false in
/-- THE RUN: from any memory with zero counters every weakly fair execution terminates, nothing faulting, and every
    final state holds each unscoped buffer at the last boundary's contents. -/
theorem run_all (hb0 : HB0 F) (hb1 : HB1 F) : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ hb0 hb1)
    (fun c Q => by rw [main_run m ρ hb0 hb1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The run read at the result buffer and the four arguments. -/
theorem run_value (hb0 : HB0 F) (hb1 : HB1 F) : θ_run defs (onTc (τ := τ) (main (F := F))) ⟨m, fun _ => 0, ρ⟩ (fun r => ∀ c : Dev nD,
      r.2.mem ((c.tc : Thread nD τ).loc main_v10) = (dat1 (V3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v10 (by decide))).trans (W4_main_v10 m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ hb0 hb1)

/-- The frame: the arguments end as launched. -/
theorem frame (hb0 : HB0 F) (hb1 : HB1 F) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => (h c).2) (run_value m ρ hb0 hb1)

end Cert.Kernel.Hand

end
-- ==== Proof.ScoreBodyBits.lean ====
/-
  Region 0's body, at every grid point: called on the four windows' current buffers, the two input windows holding their
  blocks and the two output windows anything, it returns them with the inputs unchanged and each output window at the
  score tile computed from the two input blocks — the exponential of their product, narrow in window 2 and wide in
  window 3. Stated for any float instance.
-/
import proofs.«150088_j74586402063284_2_alg».proof.Proof.RegionDataBits
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows hold their blocks at every point -/

/-- Input window 0's current buffer holds its block at every point, fetched there or not: where it is not fetched the
    block index has not moved since the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current buffer holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d

theorem before0_1 (c : Dev nD) (t : Fin cfg0.N) (d) : (dat0 V c).before 1 t d = iblk0 V c 1 t :=
  before0_1_of V (dat0 V c) (A_eq0 V c 1) (after0_1 V c) t d

/-! ## The body's triple -/

/-- The offsets of a whole-buffer access are all zero. -/
theorem offs_zero2 : (![0, 0] : Fin 2 → ℕ) = fun _ => 0 := funext fun a => by fin_cases a <;> rfl

/-- One store through the whole buffer, read back through the buffer's view, is the stored value, whatever the buffer
    held before. -/
theorem read_whole_store {κ : Kind} {sp : Space} {S : Shape} {e : EltTy} (v : View sig κ sp S e) (f : v.ty.Contents (Elt F))
    {off : Fin S.rank → ℕ} (hz : off = fun _ => 0) (inb : ∀ a, off a + S.size a ≤ S.size a) (w : S.Idx → Elt F e) :
    v.read (Elt F) (v.writes (Elt F) f [⟨Rect.unit off S.size inb, w⟩]) = w := by
  rw [View.read_writes_eq_canon v f _ (fun y => ⟨_, List.mem_singleton_self _, View.mem_set_unit_zero hz inb y⟩),
    View.canon_unit_zero hz inb w]

/-- A load through the whole buffer reads the buffer's contents. -/
theorem readAt_whole_load {κ : Kind} {sp : Space} {S : Shape} {e : EltTy} (v : View sig κ sp S e) (f : v.ty.Contents (Elt F))
    {off : Fin S.rank → ℕ} (hz : off = fun _ => 0) (inb : ∀ a, off a + S.size a ≤ S.size a) :
    v.readAt (Elt F) (Rect.unit off S.size inb).toLoadRect f = v.read (Elt F) f := by
  rw [View.readAt_eq_ld, View.ld_unit_zero hz inb]

set_option maxHeartbeats 1000000 in
/-- The body on whole buffers, the two inputs' at contents x0 and x1 and the two outputs' at anything, runs to the
    continuation with the inputs as they were, the narrow output at k0_pay2 x0 x1 and the wide one at k0_pay1 x0 x1:
    both loads read the whole of their buffers, and each store overwrites the whole of its buffer. -/
theorem sound_kernel0 (c : Dev nD) (E : Set ℕ) (i : grid0.Coords)
    (arg2 : Memref sig .tc .vmem S128x1024 .bf16) (harg2 : arg2.IsWhole)
    (arg3 : Memref sig .tc .vmem S128x1024 .bf16) (harg3 : arg3.IsWhole)
    (arg4 : Memref sig .tc .vmem S1024x1024 .bf16) (harg4 : arg4.IsWhole)
    (arg5 : Memref sig .tc .vmem S1024x1024 .f32) (harg5 : arg5.IsWhole)
    (x0 : Vec F S128x1024 .bf16) (x1 : Vec F S128x1024 .bf16) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (k0_pay2 x0 x1) ∗ owns (c : Thread nD τ) arg5 fullShare (k0_pay1 x0 x1)) -∗ K ⟨⟩))
      ⊢ wp frame (wpE (defs₀ (F := F)) Variants.none c none) E (cc0__score_kernel i arg2 harg2 arg3 harg3 arg4 harg4 arg5 harg5) K := by
  simp only [cc0__score_kernel_eq_skeleton]; unfold cc0__score_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [read_whole_store _ _ offs_zero2, readAt_whole_load _ _ offs_zero2, readAt_whole_load _ _ offs_zero2]
  iexists _; isplitr
  swap; · iexact H3
  ipureintro
  rw [read_whole_store _ _ offs_zero2, readAt_whole_load _ _ offs_zero2, readAt_whole_load _ _ offs_zero2]

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of region 0, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.LibWholeStores.lean ====
/-
  Loads after stores of a WHOLE buffer.

  A kernel body that keeps an accumulator in one buffer stores and loads that buffer whole, several times in a row.
  The contents after a list of stores are read back store by store, the last store first; when the last store
  already covers the buffer the earlier ones do not matter.  The library states this for a single store; here it is
  for any number of them.
-/
import Idealize.ShloMosaic.Lib.Pipeline.Value

noncomputable section

namespace Cert.LibWholeStores

open Idealize.ShloMosaic

/-- A load of the whole buffer (the rectangle of the buffer's own sizes at zero offsets, however the zeros are
    spelt) after several stores of the whole buffer reads the LAST store's payload `w`, whatever the earlier stores
    `L` wrote (the list holds the stores last first, as the executor records them).  For `L = []` this is the
    library's `View.readCov_unit_zero`. -/
theorem readCov_last_whole {Val : EltTy → Type} [∀ e, Nonempty (Val e)] {S : Shape} {e : EltTy} {sig : RefSig} {κ : Kind}
    {sp : Space} (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self .., View.mem_set_unit_zero h inb y⟩),
    View.canon_cons_unit_zero h, View.ld_unit_zero h]

end Cert.LibWholeStores

end
-- ==== Proof.EdgeNormBodyBits.lean ====
/-
  Region 1's body, point by point.

  The grid is (i, j, k) with k the contraction tile, innermost: the position modulo 8. The body zeroes the scratch
  when k = 0, adds the product of the point's two blocks to it at every point, and when k = 7 divides the score tile by
  the total into the output window. So a point is in one of three cases: first tile (zero, then add), inner tile (add),
  last tile (add, then divide). For each case the body's effect on whole buffers is stated outright; the position
  modulo 8 selects the case, and the running total's recursion identifies what the scratch holds with the invariant's.
-/
import proofs.«150088_j74586402063284_2_alg».proof.Proof.RegionDataBits
import proofs.«150088_j74586402063284_2_alg».proof.Proof.LibWholeStores

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form over the grid -/

/-- The first conditional's condition (the contraction coordinate is zero), from the grid coordinates. -/
abbrev cond1_0 (i : grid1.Coords) : Prop := (Scalar.cmpi .ne (Scalar.extui (Scalar.cmpi .eq (BitVec.ofNat 32 (i 2).val) 0#32)) 0#32) = 1#1
/-- It holds exactly at the points whose position is a multiple of 8. -/
theorem hcond1_0 : ∀ t : Fin cfg1.N, cond1_0 (grid1.coords t) ↔ t.val % 8 = 0 :=
  (by decide +kernel : ∀ t : Fin grid1.N, cond1_0 (grid1.coords t) ↔ t.val % 8 = 0)
/-- The second conditional's condition (the contraction coordinate is the last). -/
abbrev cond1_1 (i : grid1.Coords) : Prop := k1_cond2 i = 1#1
/-- It holds exactly at the points whose position is 7 modulo 8. -/
theorem hcond1_1 : ∀ t : Fin cfg1.N, cond1_1 (grid1.coords t) ↔ t.val % 8 = 7 :=
  (by decide +kernel : ∀ t : Fin grid1.N, cond1_1 (grid1.coords t) ↔ t.val % 8 = 7)

/-- The three input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Off the last contraction tile the output window is idle and not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At the last contraction tile it is live. -/
theorem liveAt1_3 : ∀ t : Fin cfg1.N, cond1_1 (grid1.coords t) → cfg1.idle 3 (grid1.coords t) = false := by decide +kernel

/-! ## Whole loads and whole stores -/

/-- A load of a whole buffer through the rectangle of its own sizes at zero offsets reads its contents. -/
theorem readAt_whole_unread {sp : Space} {s : Shape} {e : EltTy} {m : Memref sig .tc sp s e} (h : m.IsWhole)
    {off : Fin s.rank → Nat} (hz : off = fun _ => 0) (inb : ∀ a, off a + s.size a ≤ s.size a) (X : s.Idx → Elt F e) :
    m.view.readAt (Elt F) (Rect.unit off s.size inb).toLoadRect (h.unread X) = X := by
  rw [View.readAt_eq_ld, h.read_unread, View.ld_unit_zero hz]

/-- After stores the last of which is of the whole buffer, the buffer reads that store's payload. -/
theorem read_writes_last_whole {sp : Space} {s : Shape} {e : EltTy} (v : View sig .tc sp s e) (f : v.ty.Contents (Elt F))
    {off : Fin s.rank → Nat} (hz : off = fun _ => 0) (inb : ∀ a, off a + s.size a ≤ s.size a) (w : s.Idx → Elt F e)
    (L : List (View.Piece (Elt F) s e)) :
    v.read (Elt F) (v.writes (Elt F) f ((⟨Rect.unit off s.size inb, w⟩ : View.Piece (Elt F) s e) :: L)) = w := by
  rw [View.read_writes_eq_canon _ _ _ (fun y => ⟨_, List.mem_cons_self .., View.mem_set_unit_zero hz inb y⟩),
    View.canon_cons_unit_zero hz]

theorem zeros2 : (![0, 0] : Fin 2 → ℕ) = fun _ => 0 := by funext a; fin_cases a <;> rfl

set_option maxHeartbeats 1000000 in
/-- The first contraction tile (first conditional taken, second not): the scratch, held at anything, is zeroed and ends
    at the point's product added to zero; every window's buffer is left as it was. -/
theorem runA (c : Dev nD) (i : grid1.Coords) (arg3 : Memref sig .tc .vmem S512x1024 .bf16) (harg3 : arg3.IsWhole) (arg4 : Memref sig .tc .vmem S1024x1024 .f32) (harg4 : arg4.IsWhole) (arg5 : Memref sig .tc .vmem S1024x512 .bf16) (harg5 : arg5.IsWhole) (arg6 : Memref sig .tc .vmem S1024x1024 .f32) (harg6 : arg6.IsWhole) (hc0 : cond1_0 i) (hc1 : ¬cond1_1 i)
    (x0 : Vec F S512x1024 .bf16) (x1 : Vec F S1024x1024 .f32) (x2 : Vec F S1024x512 .bf16) (d3 : Vec F S1024x1024 .f32) (a : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare d3 ∗ owns (c : Thread nD τ) scM1 fullShare a
        ∗ (iprop(owns (c : Thread nD τ) arg3 fullShare x0 ∗ owns (c : Thread nD τ) arg4 fullShare x1 ∗ owns (c : Thread nD τ) arg5 fullShare x2 ∗ owns (c : Thread nD τ) arg6 fullShare d3 ∗ owns (c : Thread nD τ) scM1 fullShare (k1_pay2 x0 x2 (k1_pay1 (F := F)))) -∗ K ⟨⟩))
      ⊢ wp frame (wpE (defs₀ (F := F)) Variants.none c none) E (cc1__edge_norm_kernel i arg3 harg3 arg4 harg4 arg5 harg5 arg6 harg6 scM1 (Memref.isWhole_whole _)) K := by
  simp only [cc1__edge_norm_kernel_eq_skeleton]; unfold cc1__edge_norm_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg3.eq_unread hf0; obtain rfl := harg4.eq_unread hf1; obtain rfl := harg5.eq_unread hf2; obtain rfl := harg6.eq_unread hf3
  obtain rfl := (Memref.isWhole_whole cc1_scratch0).eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  iexists _; isplitr
  swap; · iexact HS
  ipureintro
  sl_unfold_run_names
  rw [read_writes_last_whole _ _ zeros2, readAt_whole_unread harg3 zeros2, readAt_whole_unread harg5 zeros2,
    Cert.LibWholeStores.readCov_last_whole _ zeros2]

set_option maxHeartbeats 1000000 in
/-- A point strictly inside a run of contraction tiles (neither conditional taken): the scratch, held at `a`, ends at
    the point's product added to `a`; every window's buffer is left as it was. -/
theorem runB (c : Dev nD) (i : grid1.Coords) (arg3 : Memref sig .tc .vmem S512x1024 .bf16) (harg3 : arg3.IsWhole) (arg4 : Memref sig .tc .vmem S1024x1024 .f32) (harg4 : arg4.IsWhole) (arg5 : Memref sig .tc .vmem S1024x512 .bf16) (harg5 : arg5.IsWhole) (arg6 : Memref sig .tc .vmem S1024x1024 .f32) (harg6 : arg6.IsWhole) (hc0 : ¬cond1_0 i) (hc1 : ¬cond1_1 i)
    (x0 : Vec F S512x1024 .bf16) (x1 : Vec F S1024x1024 .f32) (x2 : Vec F S1024x512 .bf16) (d3 : Vec F S1024x1024 .f32) (a : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare d3 ∗ owns (c : Thread nD τ) scM1 fullShare a
        ∗ (iprop(owns (c : Thread nD τ) arg3 fullShare x0 ∗ owns (c : Thread nD τ) arg4 fullShare x1 ∗ owns (c : Thread nD τ) arg5 fullShare x2 ∗ owns (c : Thread nD τ) arg6 fullShare d3 ∗ owns (c : Thread nD τ) scM1 fullShare (k1_pay2 x0 x2 a)) -∗ K ⟨⟩))
      ⊢ wp frame (wpE (defs₀ (F := F)) Variants.none c none) E (cc1__edge_norm_kernel i arg3 harg3 arg4 harg4 arg5 harg5 arg6 harg6 scM1 (Memref.isWhole_whole _)) K := by
  simp only [cc1__edge_norm_kernel_eq_skeleton]; unfold cc1__edge_norm_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg3.eq_unread hf0; obtain rfl := harg4.eq_unread hf1; obtain rfl := harg5.eq_unread hf2; obtain rfl := harg6.eq_unread hf3
  obtain rfl := (Memref.isWhole_whole cc1_scratch0).eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  iexists _; isplitr
  swap; · iexact HS
  ipureintro
  rw [read_writes_last_whole _ _ zeros2, readAt_whole_unread harg3 zeros2, readAt_whole_unread harg5 zeros2, readAt_whole_unread _ zeros2]

set_option maxHeartbeats 1000000 in
/-- The last contraction tile (first conditional not taken, second taken): the scratch, held at `a`, ends at the point's
    product added to `a`, and the output window's buffer at the score tile divided by that total. -/
theorem runC (c : Dev nD) (i : grid1.Coords) (arg3 : Memref sig .tc .vmem S512x1024 .bf16) (harg3 : arg3.IsWhole) (arg4 : Memref sig .tc .vmem S1024x1024 .f32) (harg4 : arg4.IsWhole) (arg5 : Memref sig .tc .vmem S1024x512 .bf16) (harg5 : arg5.IsWhole) (arg6 : Memref sig .tc .vmem S1024x1024 .f32) (harg6 : arg6.IsWhole) (hc0 : ¬cond1_0 i) (hc1 : cond1_1 i)
    (x0 : Vec F S512x1024 .bf16) (x1 : Vec F S1024x1024 .f32) (x2 : Vec F S1024x512 .bf16) (d3 : Vec F S1024x1024 .f32) (a : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare d3 ∗ owns (c : Thread nD τ) scM1 fullShare a
        ∗ (iprop(owns (c : Thread nD τ) arg3 fullShare x0 ∗ owns (c : Thread nD τ) arg4 fullShare x1 ∗ owns (c : Thread nD τ) arg5 fullShare x2 ∗ owns (c : Thread nD τ) arg6 fullShare (k1_pay3 x1 (k1_pay2 x0 x2 a)) ∗ owns (c : Thread nD τ) scM1 fullShare (k1_pay2 x0 x2 a)) -∗ K ⟨⟩))
      ⊢ wp frame (wpE (defs₀ (F := F)) Variants.none c none) E (cc1__edge_norm_kernel i arg3 harg3 arg4 harg4 arg5 harg5 arg6 harg6 scM1 (Memref.isWhole_whole _)) K := by
  simp only [cc1__edge_norm_kernel_eq_skeleton]; unfold cc1__edge_norm_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg3.eq_unread hf0; obtain rfl := harg4.eq_unread hf1; obtain rfl := harg5.eq_unread hf2; obtain rfl := harg6.eq_unread hf3
  obtain rfl := (Memref.isWhole_whole cc1_scratch0).eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    sl_unfold_run_names
    rw [read_writes_last_whole _ _ zeros2, readAt_whole_unread harg4 zeros2, Cert.LibWholeStores.readCov_last_whole _ zeros2,
      readAt_whole_unread harg3 zeros2, readAt_whole_unread harg5 zeros2, readAt_whole_unread _ zeros2]
  iexists _; isplitr
  swap; · iexact HS
  ipureintro
  sl_unfold_run_names
  rw [read_writes_last_whole _ _ zeros2, readAt_whole_unread harg3 zeros2, readAt_whole_unread harg5 zeros2, readAt_whole_unread _ zeros2]

/-! ## The windows' staging memrefs and what the inputs' hold -/

/-- Each window's current staging memref at point `t`, and its wholeness. -/
abbrev ms1_0 (t : Fin cfg1.N) : Memref sig .tc .vmem S512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x512 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)

variable (V : (c : Dev nD) → (b : Ref sig .tc) → Buf (Elt F) ((c : Thread nD τ).loc b))

/-- An input window's current staging buffer holds its block at every point, fetched there or not: unfetched, the
    block index has not moved since the fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' memrefs hold their blocks; the position modulo 8 says which of the three cases
    the point is in. The invariant hands the body the scratch at the running total the point before left (at anything
    at the very first point) and takes it back at this point's total: the product added to zero at a first contraction
    tile, added to the previous total otherwise. At a last contraction tile the output window receives the score tile
    over the total; elsewhere it is handed back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [Phi1_succ, PhiS_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 8 = 0
  · have hc0 : cond1_0 (grid1.coords t) := (hcond1_0 t).mpr h0
    have hc1 : ¬cond1_1 (grid1.coords t) := fun h => by have := (hcond1_1 t).mp h; omega
    rw [Dat.leavesExact_idle (dat1 V c) 3 t (idleAt1_3 t hc1) (noFlush1_3 t hc1)]
    rw [accAt_first V c t h0]
    by_cases hz : t.val = 0
    · rw [Phi1_castSucc, PhiS_zero V c _ _ hz, PhiA1_eq]
      iintro ⟨⟨⟨A1, A2, A3, A4, A5, A6, A7, A8, ⟨%a, HS⟩⟩, Hg⟩, Ho, ⟨%d0, H0⟩, ⟨%d1, H1⟩, ⟨%d2, H2⟩, ⟨%d3, H3⟩⟩
      iapply (runA c (grid1.coords t) _ (hs1_0 t) _ (hs1_1 t) _ (hs1_2 t) _ (hs1_3 t) hc0 hc1 (iblk1 V c 0 t) (iblk1 V c 1 t) (iblk1 V c 2 t) _ a Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [A1 A2 A3 A4 A5 A6 A7 A8 HS Hg]
      · isplitr [Hg]
        · isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          iexact HS
        iexact Hg
      isplitl [Ho]; · iexact Ho
      isplitl [H0]; · iexact H0
      isplitl [H1]; · iexact H1
      isplitl [H2]; · iexact H2
      iexists _; iexact H3
    · rw [Phi1_castSucc, PhiS_pos V c _ _ hz]
      iintro ⟨⟨⟨A1, A2, A3, A4, A5, A6, A7, A8, HS⟩, Hg⟩, Ho, ⟨%d0, H0⟩, ⟨%d1, H1⟩, ⟨%d2, H2⟩, ⟨%d3, H3⟩⟩
      iapply (runA c (grid1.coords t) _ (hs1_0 t) _ (hs1_1 t) _ (hs1_2 t) _ (hs1_3 t) hc0 hc1 (iblk1 V c 0 t) (iblk1 V c 1 t) (iblk1 V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [A1 A2 A3 A4 A5 A6 A7 A8 HS Hg]
      · isplitr [Hg]
        · isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          iexact HS
        iexact Hg
      isplitl [Ho]; · iexact Ho
      isplitl [H0]; · iexact H0
      isplitl [H1]; · iexact H1
      isplitl [H2]; · iexact H2
      iexists _; iexact H3
  · have hc0 : ¬cond1_0 (grid1.coords t) := fun h => h0 ((hcond1_0 t).mp h)
    have hz : t.val ≠ 0 := fun h => h0 (by rw [h])
    rw [accAt_next V c t h0]
    rw [Phi1_castSucc, PhiS_pos V c _ _ hz]
    by_cases h1 : t.val % 8 = 7
    · have hc1 : cond1_1 (grid1.coords t) := (hcond1_1 t).mpr h1
      rw [show (dat1 V c).leavesExact 3 t = owns (c : Thread nD τ) (ms1_3 t) fullShare ((dat1 V c).after 3 t) from by
        unfold Dat.leavesExact; rw [liveAt1_3 t hc1], after1_3]
      rw [accAt_next V c t h0]
      iintro ⟨⟨⟨A1, A2, A3, A4, A5, A6, A7, A8, HS⟩, Hg⟩, Ho, ⟨%d0, H0⟩, ⟨%d1, H1⟩, ⟨%d2, H2⟩, ⟨%d3, H3⟩⟩
      iapply (runC c (grid1.coords t) _ (hs1_0 t) _ (hs1_1 t) _ (hs1_2 t) _ (hs1_3 t) hc0 hc1 (iblk1 V c 0 t) (iblk1 V c 1 t) (iblk1 V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [A1 A2 A3 A4 A5 A6 A7 A8 HS Hg]
      · isplitr [Hg]
        · isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          iexact HS
        iexact Hg
      isplitl [Ho]; · iexact Ho
      isplitl [H0]; · iexact H0
      isplitl [H1]; · iexact H1
      isplitl [H2]; · iexact H2
      iexact H3
    · have hc1 : ¬cond1_1 (grid1.coords t) := fun h => h1 ((hcond1_1 t).mp h)
      rw [Dat.leavesExact_idle (dat1 V c) 3 t (idleAt1_3 t hc1) (noFlush1_3 t hc1)]
      iintro ⟨⟨⟨A1, A2, A3, A4, A5, A6, A7, A8, HS⟩, Hg⟩, Ho, ⟨%d0, H0⟩, ⟨%d1, H1⟩, ⟨%d2, H2⟩, ⟨%d3, H3⟩⟩
      iapply (runB c (grid1.coords t) _ (hs1_0 t) _ (hs1_1 t) _ (hs1_2 t) _ (hs1_3 t) hc0 hc1 (iblk1 V c 0 t) (iblk1 V c 1 t) (iblk1 V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [A1 A2 A3 A4 A5 A6 A7 A8 HS Hg]
      · isplitr [Hg]
        · isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          iexact HS
        iexact Hg
      isplitl [Ho]; · iexact Ho
      isplitl [H0]; · iexact H0
      isplitl [H1]; · iexact H1
      isplitl [H2]; · iexact H2
      iexists _; iexact H3

/-- Region 1's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.RegionData.lean ====
/-
  What the two kernel regions hold, point by point, as data the frame and the value proofs share.

  Region 0 (the scores): at grid point t every input window holds its block of the scaled queries / keys, and the
  body leaves in each of its two output windows the exponential of the product of the two blocks (once in the narrow
  format, once in the wide one).

  Region 1 (the normalisation): the grid is (i, j, k) with k the contraction tile, innermost. A scratch buffer carries
  the running total of the neighbour sum across the eight k-tiles of one output tile: it restarts from zero at
  k = 0, and after point t holds the total of the tiles 0..k (accAt). At k = 7 the body divides the score tile by
  that total into the output window; at the other points it leaves the output window alone.
-/
import proofs.«150088_j74586402063284_2_alg».proof.Proof.Gen.KernelIdeal.Launch
import proofs.«150088_j74586402063284_2_alg».proof.Proof.Gen.KernelIdeal.Skeleton
import proofs.«150088_j74586402063284_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when a region is entered
variable (V : (c : Dev nD) → (b : Ref sig .tc) → Buf (Elt F) ((c : Thread nD τ).loc b))

/-! ## Region 0: the scores -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Region 0's data: the inputs keep their blocks; output window 2 ends at the narrow score tile and output window 3
    at the wide one, both computed from the two input blocks of the point. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay2 (iblk0 V c 0 t) (iblk0 V c 1 t)
    | ⟨3, _⟩ => k0_pay1 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay2 (iblk0 V c 0 t) (iblk0 V c 1 t) := by dsimp only [dat0]
theorem after0_3 (c : Dev nD) (t : Fin cfg0.N) : (dat0 V c).after 3 t = k0_pay1 (iblk0 V c 0 t) (iblk0 V c 1 t) := by dsimp only [dat0]

/-! ## Region 1: the normalisation -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- THE RUNNING TOTAL. What the scratch buffer holds after the body at position n: at the first contraction tile of an
    output tile (n a multiple of 8) the product of the point's two blocks added to zero, at the others added to what
    the point before left. -/
def accAt (c : Dev nD) : (n : ℕ) → n < cfg1.N → Vec F S1024x1024 .f32
  | 0, hn => k1_pay2 (iblk1 V c 0 ⟨0, hn⟩) (iblk1 V c 2 ⟨0, hn⟩) (k1_pay1 (F := F))
  | n + 1, hn =>
    if (n + 1) % 8 = 0 then k1_pay2 (iblk1 V c 0 ⟨n + 1, hn⟩) (iblk1 V c 2 ⟨n + 1, hn⟩) (k1_pay1 (F := F))
    else k1_pay2 (iblk1 V c 0 ⟨n + 1, hn⟩) (iblk1 V c 2 ⟨n + 1, hn⟩) (accAt c n (Nat.lt_of_succ_lt hn))

/-- At the first contraction tile the total restarts from zero. -/
theorem accAt_first (c : Dev nD) (t : Fin cfg1.N) (h : t.val % 8 = 0) :
    accAt V c t.val t.isLt = k1_pay2 (iblk1 V c 0 t) (iblk1 V c 2 t) (k1_pay1 (F := F)) := by
  obtain ⟨n, hn⟩ := t
  cases n with
  | zero => rfl
  | succ n => exact if_pos h

/-- At a later contraction tile the point's product is added to what the point before left. -/
theorem accAt_next (c : Dev nD) (t : Fin cfg1.N) (h : ¬ t.val % 8 = 0) :
    accAt V c t.val t.isLt = k1_pay2 (iblk1 V c 0 t) (iblk1 V c 2 t)
      (accAt V c (t.val - 1) (Nat.lt_of_le_of_lt (Nat.sub_le _ _) t.isLt)) := by
  obtain ⟨n, hn⟩ := t
  cases n with
  | zero => exact absurd (Nat.zero_mod _) h
  | succ n => exact if_neg h

/-- The scratch buffer, as the memref the body is called with. -/
abbrev scM1 : Memref sig .tc .vmem S1024x1024 .f32 := Memref.whole cc1_scratch0

/-- A scoped buffer held whole at some contents. -/
abbrev anyAt (c : Dev nD) (b : Ref sig .tc) : sProp 𝕄 :=
  iprop(∃ f : Buf (Elt F) ((c : Thread nD τ).loc b), ((c : Thread nD τ).loc b) ↦{fullShare} f)

/-- The region's invariant before position n: before the first point every scoped buffer that is no staging buffer of
    this region at anything; afterwards the same with the scratch at the running total the point before left. -/
def PhiS (c : Dev nD) : (n : ℕ) → n ≤ cfg1.N → sProp 𝕄
  | 0, _ => Pipeline.ΦA spec1 c
  | n + 1, hn => iprop(iprop(anyAt (F := F) c cc0_stg0_0 ∗ anyAt (F := F) c cc0_stg0_1 ∗ anyAt (F := F) c cc0_stg1_0 ∗ anyAt (F := F) c cc0_stg1_1
      ∗ anyAt (F := F) c cc0_stg2_0 ∗ anyAt (F := F) c cc0_stg2_1 ∗ anyAt (F := F) c cc0_stg3_0 ∗ anyAt (F := F) c cc0_stg3_1
      ∗ owns (c : Thread nD τ) scM1 fullShare (accAt V c n hn)) ∗ (∃ r, prngReg c r))

/-- The class invariant with the scratch as a memref owned at some contents. -/
theorem PhiA1_eq (c : Dev nD) :
    (Pipeline.ΦA spec1 c : sProp 𝕄)
      = iprop(iprop(anyAt (F := F) c cc0_stg0_0 ∗ anyAt (F := F) c cc0_stg0_1 ∗ anyAt (F := F) c cc0_stg1_0 ∗ anyAt (F := F) c cc0_stg1_1
      ∗ anyAt (F := F) c cc0_stg2_0 ∗ anyAt (F := F) c cc0_stg2_1 ∗ anyAt (F := F) c cc0_stg3_0 ∗ anyAt (F := F) c cc0_stg3_1
      ∗ (∃ d, owns (c : Thread nD τ) scM1 fullShare d)) ∗ (∃ r, prngReg c r)) := by
  unfold Pipeline.ΦA; rw [scopedRest1_eq]; simp only [scM1, owns_whole]; try rfl

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(anyAt (F := F) c cc0_stg0_0 ∗ anyAt (F := F) c cc0_stg0_1 ∗ anyAt (F := F) c cc0_stg1_0 ∗ anyAt (F := F) c cc0_stg1_1
      ∗ anyAt (F := F) c cc0_stg2_0 ∗ anyAt (F := F) c cc0_stg2_1 ∗ anyAt (F := F) c cc0_stg3_0 ∗ anyAt (F := F) c cc0_stg3_1
      ∗ owns (c : Thread nD τ) scM1 fullShare (accAt V c n hn)) ∗ (∃ r, prngReg c r)) := rfl

theorem PhiS_pos (c : Dev nD) (n : ℕ) (h : n ≤ cfg1.N) (hz : n ≠ 0) :
    PhiS V c n h = iprop(iprop(anyAt (F := F) c cc0_stg0_0 ∗ anyAt (F := F) c cc0_stg0_1 ∗ anyAt (F := F) c cc0_stg1_0 ∗ anyAt (F := F) c cc0_stg1_1
      ∗ anyAt (F := F) c cc0_stg2_0 ∗ anyAt (F := F) c cc0_stg2_1 ∗ anyAt (F := F) c cc0_stg3_0 ∗ anyAt (F := F) c cc0_stg3_1
      ∗ owns (c : Thread nD τ) scM1 fullShare (accAt V c (n - 1) (by omega))) ∗ (∃ r, prngReg c r)) := by
  cases n with
  | zero => exact absurd rfl hz
  | succ n => rfl

/-- Region 1's data: the inputs keep their blocks; the output window's contents after a point are the score tile over
    the running total (read only at the points k = 7, where the window is stored and written back); the invariant
    carries the scratch. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (iblk1 V c 1 t) (accAt V c t.val t.isLt)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay3 (iblk1 V c 1 t) (accAt V c t.val t.isLt) := by dsimp only [dat1]

theorem Phi1_castSucc (c : Dev nD) (t : Fin cfg1.N) :
    (dat1 V c).Φ t.castSucc = PhiS V c t.val (Nat.le_of_lt t.isLt) := by
  dsimp only [dat1]; simp only [Fin.coe_castSucc]

theorem Phi1_succ (c : Dev nD) (t : Fin cfg1.N) :
    (dat1 V c).Φ t.succ = PhiS V c (t.val + 1) t.isLt := rfl

/-- Before the first point the invariant is the class's. -/
theorem Phi1_zero (c : Dev nD) : (dat1 V c).Φ 0 = Pipeline.ΦA spec1 c := rfl

/-- After any point but none the invariant gives the class's back: the scratch's named contents are forgotten. -/
theorem Phi1_out (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨H1, H2, H3, H4, H5, H6, H7, H8, HS⟩, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists _; iexact HS
  iexact Hg

theorem Phi1_last (c : Dev nD) : (dat1 V c).Φ (Fin.last cfg1.N) ⊢ Pipeline.ΦA spec1 c :=
  Phi1_out V c _ (by rw [Fin.val_last]; have : cfg1.N = 128 := N_1; omega)

end Cert.KernelIdeal.Hand

end
-- ==== Proof.Contents.lean ====
/-
  What every unscoped buffer holds at each boundary of the program: the launch memory, then the first host stretch
  (the scaled queries and keys), then region 0's two score arrays as its write-backs leave them, then the second host
  stretch (the adjacency in the narrow format), then region 1's result array as its write-backs leave it.  No host
  operation and no region writes an argument array, so each argument is read back through the whole fold unchanged.
-/
import proofs.«150088_j74586402063284_2_alg».proof.Proof.RegionData
import proofs.«150088_j74586402063284_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core c's buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At region 0's exit: its arrays at what the write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: its arrays at what the write-backs leave, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## A buffer that neither host stretch writes and no region stages keeps its launch contents -/

theorem W4_untouched (c : Dev nD) (b : Ref sig .tc) (h0 : b ∉ hostOps0_W) (h1 : b ∉ hostOps1_W)
    (hr0 : ∀ w, Pipeline.arrRef spec0 w ≠ b) (hr1 : ∀ w, Pipeline.arrRef spec1 w ≠ b) :
    W4 m ρ c (Proc.devRef .tc b) = m ((c : Thread nD τ).loc b) :=
  calc W4 m ρ c (Proc.devRef .tc b)
    _ = W3 m ρ c (Proc.devRef .tc b) := W4_of_ne m ρ c b hr1
    _ = W2 m ρ c (Proc.devRef .tc b) := StableHlo.after_of_writes_sub hostOps1 _ hostOps1_writes h1
    _ = W1 m ρ c (Proc.devRef .tc b) := W2_of_ne m ρ c b hr0
    _ = W0 m ρ c (Proc.devRef .tc b) := StableHlo.after_of_writes_sub hostOps0 _ hostOps0_writes h0
    _ = m ((c : Thread nD τ).loc b) := rfl

theorem W4_main_arg0 (c : Dev nD) : W4 m ρ c (Proc.devRef .tc main_arg0) = m ((c : Thread nD τ).loc main_arg0) :=
  W4_untouched m ρ c main_arg0 (by decide) (by decide) (by decide) (by decide)
theorem W4_main_arg1 (c : Dev nD) : W4 m ρ c (Proc.devRef .tc main_arg1) = m ((c : Thread nD τ).loc main_arg1) :=
  W4_untouched m ρ c main_arg1 (by decide) (by decide) (by decide) (by decide)
theorem W4_main_arg2 (c : Dev nD) : W4 m ρ c (Proc.devRef .tc main_arg2) = m ((c : Thread nD τ).loc main_arg2) :=
  W4_untouched m ρ c main_arg2 (by decide) (by decide) (by decide) (by decide)
theorem W4_main_arg3 (c : Dev nD) : W4 m ρ c (Proc.devRef .tc main_arg3) = m ((c : Thread nD τ).loc main_arg3) :=
  W4_untouched m ρ c main_arg3 (by decide) (by decide) (by decide) (by decide)

/-- The result buffer ends at region 1's output array as its write-backs leave it. -/
theorem W4_main_v10 (c : Dev nD) : W4 m ρ c (Proc.devRef .tc main_v10) = (dat1 (V3 m ρ) c).arrAt 3 cfg1.N :=
  W4_arr m ρ c 3

end Cert.KernelIdeal.Hand

end
-- ==== Proof.Run.lean ====
/-
  The whole program as a run: the host stretches and the two kernel regions in order, each region entered from what
  the stretch before it left.  A region takes its windows' arrays out of the unscoped buffers, runs its pipeline
  (body obligation, invariant in and out), and puts the arrays back at what its write-backs leave.  Every weakly
  fair execution terminates, nothing faults, and at the end every unscoped buffer holds the last boundary's
  contents: the arguments as launched, the result buffer at region 1's output array.
-/
import proofs.«150088_j74586402063284_2_alg».proof.Proof.Contents

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)

/-- A host stretch as a segment over the unscoped references. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the owes: every unscoped buffer at the last boundary's contents. -/
abbrev Tₙ (c : Dev nD) : sProp 𝕄 := iprop(StableHlo.held (c : Thread nD τ) (Pipeline.ucRefs τ sig) (W4 m ρ c) ∗ ∃ r, prngReg c r)

/-- The two body obligations (each proved in its own module), at every entry contents and on every core. -/
abbrev HB0 (F : FTy → Type) [FloatOps F] : Prop :=
  ∀ (V : (c : Dev nD) → (b : Ref sig .tc) → Buf (Elt F) ((c : Thread nD τ).loc b)) (c : Dev nD),
    BodyObligation (dat0 (F := F) V c) (defs₀ (F := F)) Variants.none () Set.univ
abbrev HB1 (F : FTy → Type) [FloatOps F] : Prop :=
  ∀ (V : (c : Dev nD) → (b : Ref sig .tc) → Buf (Elt F) ((c : Thread nD τ).loc b)) (c : Dev nD),
    BodyObligation (dat1 (F := F) V c) (defs₀ (F := F)) Variants.none () Set.univ

set_option backward.isDefEq.respectTransparency.types false in
/-- Region 0 over the thread state: entered from every unscoped buffer at W1, left at W2. -/
def reg0 (hb0 : HB0 F) : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (hb0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W3, left at W4.  Its invariant is the
    class's before the first point and gives the class's back after the last (the scratch's contents forgotten). -/
def reg1 (hb1 : HB1 F) : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (hb1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from Phi1_last (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's four segments in order. -/
abbrev segs (hb0 : HB0 F) (hb1 : HB1 F) : List (Pipeline.Seg (pcfgs (F := F)) adm (pdats m ρ) () defs₀ 𝒱₀ L lv) :=
  [ .host (hseg hostOps0 hostOps0_sub hostOps0_fresh (W0 m ρ)),
    .region (reg0 m ρ hb0),
    .host (hseg hostOps1 hostOps1_sub hostOps1_fresh (W2 m ρ)),
    .region (reg1 m ρ hb1) ]

theorem main_run (hb0 : HB0 F) (hb1 : HB1 F) (c : Dev nD) : main (F := F) c = Pipeline.Seg.run (segs m ρ hb0 hb1) := (main_chain c).trans (by chain_rfl)

set_option backward.isDefEq.respectTransparency.types false in
/-- THE RUN: from any memory with zero counters every weakly fair execution terminates, nothing faulting, and every
    final state holds each unscoped buffer at the last boundary's contents. -/
theorem run_all (hb0 : HB0 F) (hb1 : HB1 F) : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ hb0 hb1)
    (fun c Q => by rw [main_run m ρ hb0 hb1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The run read at the result buffer and the four arguments. -/
theorem run_value (hb0 : HB0 F) (hb1 : HB1 F) : θ_run defs (onTc (τ := τ) (main (F := F))) ⟨m, fun _ => 0, ρ⟩ (fun r => ∀ c : Dev nD,
      r.2.mem ((c.tc : Thread nD τ).loc main_v10) = (dat1 (V3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v10 (by decide))).trans (W4_main_v10 m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ hb0 hb1)

/-- The frame: the arguments end as launched. -/
theorem frame (hb0 : HB0 F) (hb1 : HB1 F) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => (h c).2) (run_value m ρ hb0 hb1)

end Cert.KernelIdeal.Hand

end
-- ==== Proof.ScoreBody.lean ====
/-
  Region 0's body, at every grid point: called on the four windows' current buffers, the two input windows holding their
  blocks and the two output windows anything, it returns them with the inputs unchanged and each output window at the
  score tile computed from the two input blocks — the exponential of their product, narrow in window 2 and wide in
  window 3. Stated for any float instance.
-/
import proofs.«150088_j74586402063284_2_alg».proof.Proof.RegionData
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows hold their blocks at every point -/

/-- Input window 0's current buffer holds its block at every point, fetched there or not: where it is not fetched the
    block index has not moved since the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current buffer holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d

theorem before0_1 (c : Dev nD) (t : Fin cfg0.N) (d) : (dat0 V c).before 1 t d = iblk0 V c 1 t :=
  before0_1_of V (dat0 V c) (A_eq0 V c 1) (after0_1 V c) t d

/-! ## The body's triple -/

/-- The offsets of a whole-buffer access are all zero. -/
theorem offs_zero2 : (![0, 0] : Fin 2 → ℕ) = fun _ => 0 := funext fun a => by fin_cases a <;> rfl

/-- One store through the whole buffer, read back through the buffer's view, is the stored value, whatever the buffer
    held before. -/
theorem read_whole_store {κ : Kind} {sp : Space} {S : Shape} {e : EltTy} (v : View sig κ sp S e) (f : v.ty.Contents (Elt F))
    {off : Fin S.rank → ℕ} (hz : off = fun _ => 0) (inb : ∀ a, off a + S.size a ≤ S.size a) (w : S.Idx → Elt F e) :
    v.read (Elt F) (v.writes (Elt F) f [⟨Rect.unit off S.size inb, w⟩]) = w := by
  rw [View.read_writes_eq_canon v f _ (fun y => ⟨_, List.mem_singleton_self _, View.mem_set_unit_zero hz inb y⟩),
    View.canon_unit_zero hz inb w]

/-- A load through the whole buffer reads the buffer's contents. -/
theorem readAt_whole_load {κ : Kind} {sp : Space} {S : Shape} {e : EltTy} (v : View sig κ sp S e) (f : v.ty.Contents (Elt F))
    {off : Fin S.rank → ℕ} (hz : off = fun _ => 0) (inb : ∀ a, off a + S.size a ≤ S.size a) :
    v.readAt (Elt F) (Rect.unit off S.size inb).toLoadRect f = v.read (Elt F) f := by
  rw [View.readAt_eq_ld, View.ld_unit_zero hz inb]

set_option maxHeartbeats 1000000 in
/-- The body on whole buffers, the two inputs' at contents x0 and x1 and the two outputs' at anything, runs to the
    continuation with the inputs as they were, the narrow output at k0_pay2 x0 x1 and the wide one at k0_pay1 x0 x1:
    both loads read the whole of their buffers, and each store overwrites the whole of its buffer. -/
theorem sound_kernel0 (c : Dev nD) (E : Set ℕ) (i : grid0.Coords)
    (arg2 : Memref sig .tc .vmem S128x1024 .bf16) (harg2 : arg2.IsWhole)
    (arg3 : Memref sig .tc .vmem S128x1024 .bf16) (harg3 : arg3.IsWhole)
    (arg4 : Memref sig .tc .vmem S1024x1024 .bf16) (harg4 : arg4.IsWhole)
    (arg5 : Memref sig .tc .vmem S1024x1024 .f32) (harg5 : arg5.IsWhole)
    (x0 : Vec F S128x1024 .bf16) (x1 : Vec F S128x1024 .bf16) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (k0_pay2 x0 x1) ∗ owns (c : Thread nD τ) arg5 fullShare (k0_pay1 x0 x1)) -∗ K ⟨⟩))
      ⊢ wp frame (wpE (defs₀ (F := F)) Variants.none c none) E (cc0__score_kernel i arg2 harg2 arg3 harg3 arg4 harg4 arg5 harg5) K := by
  simp only [cc0__score_kernel_eq_skeleton]; unfold cc0__score_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [read_whole_store _ _ offs_zero2, readAt_whole_load _ _ offs_zero2, readAt_whole_load _ _ offs_zero2]
  iexists _; isplitr
  swap; · iexact H3
  ipureintro
  rw [read_whole_store _ _ offs_zero2, readAt_whole_load _ _ offs_zero2, readAt_whole_load _ _ offs_zero2]

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of region 0, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.EdgeNormBody.lean ====
/-
  Region 1's body, point by point.

  The grid is (i, j, k) with k the contraction tile, innermost: the position modulo 8. The body zeroes the scratch
  when k = 0, adds the product of the point's two blocks to it at every point, and when k = 7 divides the score tile by
  the total into the output window. So a point is in one of three cases: first tile (zero, then add), inner tile (add),
  last tile (add, then divide). For each case the body's effect on whole buffers is stated outright; the position
  modulo 8 selects the case, and the running total's recursion identifies what the scratch holds with the invariant's.
-/
import proofs.«150088_j74586402063284_2_alg».proof.Proof.RegionData
import proofs.«150088_j74586402063284_2_alg».proof.Proof.LibWholeStores

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form over the grid -/

/-- The first conditional's condition (the contraction coordinate is zero), from the grid coordinates. -/
abbrev cond1_0 (i : grid1.Coords) : Prop := (Scalar.cmpi .ne (Scalar.extui (Scalar.cmpi .eq (BitVec.ofNat 32 (i 2).val) 0#32)) 0#32) = 1#1
/-- It holds exactly at the points whose position is a multiple of 8. -/
theorem hcond1_0 : ∀ t : Fin cfg1.N, cond1_0 (grid1.coords t) ↔ t.val % 8 = 0 :=
  (by decide +kernel : ∀ t : Fin grid1.N, cond1_0 (grid1.coords t) ↔ t.val % 8 = 0)
/-- The second conditional's condition (the contraction coordinate is the last). -/
abbrev cond1_1 (i : grid1.Coords) : Prop := k1_cond2 i = 1#1
/-- It holds exactly at the points whose position is 7 modulo 8. -/
theorem hcond1_1 : ∀ t : Fin cfg1.N, cond1_1 (grid1.coords t) ↔ t.val % 8 = 7 :=
  (by decide +kernel : ∀ t : Fin grid1.N, cond1_1 (grid1.coords t) ↔ t.val % 8 = 7)

/-- The three input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Off the last contraction tile the output window is idle and not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At the last contraction tile it is live. -/
theorem liveAt1_3 : ∀ t : Fin cfg1.N, cond1_1 (grid1.coords t) → cfg1.idle 3 (grid1.coords t) = false := by decide +kernel

/-! ## Whole loads and whole stores -/

/-- A load of a whole buffer through the rectangle of its own sizes at zero offsets reads its contents. -/
theorem readAt_whole_unread {sp : Space} {s : Shape} {e : EltTy} {m : Memref sig .tc sp s e} (h : m.IsWhole)
    {off : Fin s.rank → Nat} (hz : off = fun _ => 0) (inb : ∀ a, off a + s.size a ≤ s.size a) (X : s.Idx → Elt F e) :
    m.view.readAt (Elt F) (Rect.unit off s.size inb).toLoadRect (h.unread X) = X := by
  rw [View.readAt_eq_ld, h.read_unread, View.ld_unit_zero hz]

/-- After stores the last of which is of the whole buffer, the buffer reads that store's payload. -/
theorem read_writes_last_whole {sp : Space} {s : Shape} {e : EltTy} (v : View sig .tc sp s e) (f : v.ty.Contents (Elt F))
    {off : Fin s.rank → Nat} (hz : off = fun _ => 0) (inb : ∀ a, off a + s.size a ≤ s.size a) (w : s.Idx → Elt F e)
    (L : List (View.Piece (Elt F) s e)) :
    v.read (Elt F) (v.writes (Elt F) f ((⟨Rect.unit off s.size inb, w⟩ : View.Piece (Elt F) s e) :: L)) = w := by
  rw [View.read_writes_eq_canon _ _ _ (fun y => ⟨_, List.mem_cons_self .., View.mem_set_unit_zero hz inb y⟩),
    View.canon_cons_unit_zero hz]

theorem zeros2 : (![0, 0] : Fin 2 → ℕ) = fun _ => 0 := by funext a; fin_cases a <;> rfl

set_option maxHeartbeats 1000000 in
/-- The first contraction tile (first conditional taken, second not): the scratch, held at anything, is zeroed and ends
    at the point's product added to zero; every window's buffer is left as it was. -/
theorem runA (c : Dev nD) (i : grid1.Coords) (arg3 : Memref sig .tc .vmem S512x1024 .bf16) (harg3 : arg3.IsWhole) (arg4 : Memref sig .tc .vmem S1024x1024 .f32) (harg4 : arg4.IsWhole) (arg5 : Memref sig .tc .vmem S1024x512 .bf16) (harg5 : arg5.IsWhole) (arg6 : Memref sig .tc .vmem S1024x1024 .f32) (harg6 : arg6.IsWhole) (hc0 : cond1_0 i) (hc1 : ¬cond1_1 i)
    (x0 : Vec F S512x1024 .bf16) (x1 : Vec F S1024x1024 .f32) (x2 : Vec F S1024x512 .bf16) (d3 : Vec F S1024x1024 .f32) (a : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare d3 ∗ owns (c : Thread nD τ) scM1 fullShare a
        ∗ (iprop(owns (c : Thread nD τ) arg3 fullShare x0 ∗ owns (c : Thread nD τ) arg4 fullShare x1 ∗ owns (c : Thread nD τ) arg5 fullShare x2 ∗ owns (c : Thread nD τ) arg6 fullShare d3 ∗ owns (c : Thread nD τ) scM1 fullShare (k1_pay2 x0 x2 (k1_pay1 (F := F)))) -∗ K ⟨⟩))
      ⊢ wp frame (wpE (defs₀ (F := F)) Variants.none c none) E (cc1__edge_norm_kernel i arg3 harg3 arg4 harg4 arg5 harg5 arg6 harg6 scM1 (Memref.isWhole_whole _)) K := by
  simp only [cc1__edge_norm_kernel_eq_skeleton]; unfold cc1__edge_norm_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg3.eq_unread hf0; obtain rfl := harg4.eq_unread hf1; obtain rfl := harg5.eq_unread hf2; obtain rfl := harg6.eq_unread hf3
  obtain rfl := (Memref.isWhole_whole cc1_scratch0).eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  iexists _; isplitr
  swap; · iexact HS
  ipureintro
  sl_unfold_run_names
  rw [read_writes_last_whole _ _ zeros2, readAt_whole_unread harg3 zeros2, readAt_whole_unread harg5 zeros2,
    Cert.LibWholeStores.readCov_last_whole _ zeros2]

set_option maxHeartbeats 1000000 in
/-- A point strictly inside a run of contraction tiles (neither conditional taken): the scratch, held at `a`, ends at
    the point's product added to `a`; every window's buffer is left as it was. -/
theorem runB (c : Dev nD) (i : grid1.Coords) (arg3 : Memref sig .tc .vmem S512x1024 .bf16) (harg3 : arg3.IsWhole) (arg4 : Memref sig .tc .vmem S1024x1024 .f32) (harg4 : arg4.IsWhole) (arg5 : Memref sig .tc .vmem S1024x512 .bf16) (harg5 : arg5.IsWhole) (arg6 : Memref sig .tc .vmem S1024x1024 .f32) (harg6 : arg6.IsWhole) (hc0 : ¬cond1_0 i) (hc1 : ¬cond1_1 i)
    (x0 : Vec F S512x1024 .bf16) (x1 : Vec F S1024x1024 .f32) (x2 : Vec F S1024x512 .bf16) (d3 : Vec F S1024x1024 .f32) (a : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare d3 ∗ owns (c : Thread nD τ) scM1 fullShare a
        ∗ (iprop(owns (c : Thread nD τ) arg3 fullShare x0 ∗ owns (c : Thread nD τ) arg4 fullShare x1 ∗ owns (c : Thread nD τ) arg5 fullShare x2 ∗ owns (c : Thread nD τ) arg6 fullShare d3 ∗ owns (c : Thread nD τ) scM1 fullShare (k1_pay2 x0 x2 a)) -∗ K ⟨⟩))
      ⊢ wp frame (wpE (defs₀ (F := F)) Variants.none c none) E (cc1__edge_norm_kernel i arg3 harg3 arg4 harg4 arg5 harg5 arg6 harg6 scM1 (Memref.isWhole_whole _)) K := by
  simp only [cc1__edge_norm_kernel_eq_skeleton]; unfold cc1__edge_norm_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg3.eq_unread hf0; obtain rfl := harg4.eq_unread hf1; obtain rfl := harg5.eq_unread hf2; obtain rfl := harg6.eq_unread hf3
  obtain rfl := (Memref.isWhole_whole cc1_scratch0).eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  iexists _; isplitr
  swap; · iexact HS
  ipureintro
  rw [read_writes_last_whole _ _ zeros2, readAt_whole_unread harg3 zeros2, readAt_whole_unread harg5 zeros2, readAt_whole_unread _ zeros2]

set_option maxHeartbeats 1000000 in
/-- The last contraction tile (first conditional not taken, second taken): the scratch, held at `a`, ends at the point's
    product added to `a`, and the output window's buffer at the score tile divided by that total. -/
theorem runC (c : Dev nD) (i : grid1.Coords) (arg3 : Memref sig .tc .vmem S512x1024 .bf16) (harg3 : arg3.IsWhole) (arg4 : Memref sig .tc .vmem S1024x1024 .f32) (harg4 : arg4.IsWhole) (arg5 : Memref sig .tc .vmem S1024x512 .bf16) (harg5 : arg5.IsWhole) (arg6 : Memref sig .tc .vmem S1024x1024 .f32) (harg6 : arg6.IsWhole) (hc0 : ¬cond1_0 i) (hc1 : cond1_1 i)
    (x0 : Vec F S512x1024 .bf16) (x1 : Vec F S1024x1024 .f32) (x2 : Vec F S1024x512 .bf16) (d3 : Vec F S1024x1024 .f32) (a : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare d3 ∗ owns (c : Thread nD τ) scM1 fullShare a
        ∗ (iprop(owns (c : Thread nD τ) arg3 fullShare x0 ∗ owns (c : Thread nD τ) arg4 fullShare x1 ∗ owns (c : Thread nD τ) arg5 fullShare x2 ∗ owns (c : Thread nD τ) arg6 fullShare (k1_pay3 x1 (k1_pay2 x0 x2 a)) ∗ owns (c : Thread nD τ) scM1 fullShare (k1_pay2 x0 x2 a)) -∗ K ⟨⟩))
      ⊢ wp frame (wpE (defs₀ (F := F)) Variants.none c none) E (cc1__edge_norm_kernel i arg3 harg3 arg4 harg4 arg5 harg5 arg6 harg6 scM1 (Memref.isWhole_whole _)) K := by
  simp only [cc1__edge_norm_kernel_eq_skeleton]; unfold cc1__edge_norm_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg3.eq_unread hf0; obtain rfl := harg4.eq_unread hf1; obtain rfl := harg5.eq_unread hf2; obtain rfl := harg6.eq_unread hf3
  obtain rfl := (Memref.isWhole_whole cc1_scratch0).eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    sl_unfold_run_names
    rw [read_writes_last_whole _ _ zeros2, readAt_whole_unread harg4 zeros2, Cert.LibWholeStores.readCov_last_whole _ zeros2,
      readAt_whole_unread harg3 zeros2, readAt_whole_unread harg5 zeros2, readAt_whole_unread _ zeros2]
  iexists _; isplitr
  swap; · iexact HS
  ipureintro
  sl_unfold_run_names
  rw [read_writes_last_whole _ _ zeros2, readAt_whole_unread harg3 zeros2, readAt_whole_unread harg5 zeros2, readAt_whole_unread _ zeros2]

/-! ## The windows' staging memrefs and what the inputs' hold -/

/-- Each window's current staging memref at point `t`, and its wholeness. -/
abbrev ms1_0 (t : Fin cfg1.N) : Memref sig .tc .vmem S512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x512 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)

variable (V : (c : Dev nD) → (b : Ref sig .tc) → Buf (Elt F) ((c : Thread nD τ).loc b))

/-- An input window's current staging buffer holds its block at every point, fetched there or not: unfetched, the
    block index has not moved since the fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' memrefs hold their blocks; the position modulo 8 says which of the three cases
    the point is in. The invariant hands the body the scratch at the running total the point before left (at anything
    at the very first point) and takes it back at this point's total: the product added to zero at a first contraction
    tile, added to the previous total otherwise. At a last contraction tile the output window receives the score tile
    over the total; elsewhere it is handed back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [Phi1_succ, PhiS_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 8 = 0
  · have hc0 : cond1_0 (grid1.coords t) := (hcond1_0 t).mpr h0
    have hc1 : ¬cond1_1 (grid1.coords t) := fun h => by have := (hcond1_1 t).mp h; omega
    rw [Dat.leavesExact_idle (dat1 V c) 3 t (idleAt1_3 t hc1) (noFlush1_3 t hc1)]
    rw [accAt_first V c t h0]
    by_cases hz : t.val = 0
    · rw [Phi1_castSucc, PhiS_zero V c _ _ hz, PhiA1_eq]
      iintro ⟨⟨⟨A1, A2, A3, A4, A5, A6, A7, A8, ⟨%a, HS⟩⟩, Hg⟩, Ho, ⟨%d0, H0⟩, ⟨%d1, H1⟩, ⟨%d2, H2⟩, ⟨%d3, H3⟩⟩
      iapply (runA c (grid1.coords t) _ (hs1_0 t) _ (hs1_1 t) _ (hs1_2 t) _ (hs1_3 t) hc0 hc1 (iblk1 V c 0 t) (iblk1 V c 1 t) (iblk1 V c 2 t) _ a Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [A1 A2 A3 A4 A5 A6 A7 A8 HS Hg]
      · isplitr [Hg]
        · isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          iexact HS
        iexact Hg
      isplitl [Ho]; · iexact Ho
      isplitl [H0]; · iexact H0
      isplitl [H1]; · iexact H1
      isplitl [H2]; · iexact H2
      iexists _; iexact H3
    · rw [Phi1_castSucc, PhiS_pos V c _ _ hz]
      iintro ⟨⟨⟨A1, A2, A3, A4, A5, A6, A7, A8, HS⟩, Hg⟩, Ho, ⟨%d0, H0⟩, ⟨%d1, H1⟩, ⟨%d2, H2⟩, ⟨%d3, H3⟩⟩
      iapply (runA c (grid1.coords t) _ (hs1_0 t) _ (hs1_1 t) _ (hs1_2 t) _ (hs1_3 t) hc0 hc1 (iblk1 V c 0 t) (iblk1 V c 1 t) (iblk1 V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [A1 A2 A3 A4 A5 A6 A7 A8 HS Hg]
      · isplitr [Hg]
        · isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          iexact HS
        iexact Hg
      isplitl [Ho]; · iexact Ho
      isplitl [H0]; · iexact H0
      isplitl [H1]; · iexact H1
      isplitl [H2]; · iexact H2
      iexists _; iexact H3
  · have hc0 : ¬cond1_0 (grid1.coords t) := fun h => h0 ((hcond1_0 t).mp h)
    have hz : t.val ≠ 0 := fun h => h0 (by rw [h])
    rw [accAt_next V c t h0]
    rw [Phi1_castSucc, PhiS_pos V c _ _ hz]
    by_cases h1 : t.val % 8 = 7
    · have hc1 : cond1_1 (grid1.coords t) := (hcond1_1 t).mpr h1
      rw [show (dat1 V c).leavesExact 3 t = owns (c : Thread nD τ) (ms1_3 t) fullShare ((dat1 V c).after 3 t) from by
        unfold Dat.leavesExact; rw [liveAt1_3 t hc1], after1_3]
      rw [accAt_next V c t h0]
      iintro ⟨⟨⟨A1, A2, A3, A4, A5, A6, A7, A8, HS⟩, Hg⟩, Ho, ⟨%d0, H0⟩, ⟨%d1, H1⟩, ⟨%d2, H2⟩, ⟨%d3, H3⟩⟩
      iapply (runC c (grid1.coords t) _ (hs1_0 t) _ (hs1_1 t) _ (hs1_2 t) _ (hs1_3 t) hc0 hc1 (iblk1 V c 0 t) (iblk1 V c 1 t) (iblk1 V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [A1 A2 A3 A4 A5 A6 A7 A8 HS Hg]
      · isplitr [Hg]
        · isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          iexact HS
        iexact Hg
      isplitl [Ho]; · iexact Ho
      isplitl [H0]; · iexact H0
      isplitl [H1]; · iexact H1
      isplitl [H2]; · iexact H2
      iexact H3
    · have hc1 : ¬cond1_1 (grid1.coords t) := fun h => h1 ((hcond1_1 t).mp h)
      rw [Dat.leavesExact_idle (dat1 V c) 3 t (idleAt1_3 t hc1) (noFlush1_3 t hc1)]
      iintro ⟨⟨⟨A1, A2, A3, A4, A5, A6, A7, A8, HS⟩, Hg⟩, Ho, ⟨%d0, H0⟩, ⟨%d1, H1⟩, ⟨%d2, H2⟩, ⟨%d3, H3⟩⟩
      iapply (runB c (grid1.coords t) _ (hs1_0 t) _ (hs1_1 t) _ (hs1_2 t) _ (hs1_3 t) hc0 hc1 (iblk1 V c 0 t) (iblk1 V c 1 t) (iblk1 V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [A1 A2 A3 A4 A5 A6 A7 A8 HS Hg]
      · isplitr [Hg]
        · isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          iexact HS
        iexact Hg
      isplitl [Ho]; · iexact Ho
      isplitl [H0]; · iexact H0
      isplitl [H1]; · iexact H1
      isplitl [H2]; · iexact H2
      iexists _; iexact H3

/-- Region 1's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Spec.lean ====
/-
  The mathematics both programs compute, as ONE function of the four argument arrays.

  With q(d,i) = wq(d) * f(d,i) and k(d,j) = wk(d) * f(d,j) the score is
      S(i,j) = exp (sum over the 128 features d of q(d,i) * k(d,j)),
  the neighbour sum under it is
      D(i,j) = sum over the 4096 nodes m of nbr(j,m) * S(m,i),
  and the result at (i,j) is S(i,j) / D(i,j), everything on the extended reals.
-/
import Idealize.ShloMosaic.PureOps.Ideal
import Idealize.ShloMosaic.Lib.ValueIdx

noncomputable section

open scoped BigOperators

namespace Cert.Spec

open Idealize.ShloMosaic Idealize.ShloMosaic.ValueIdx

/-- The feature array's shape, the adjacency's (and the result's), and a weight vector's. -/
abbrev SF : Shape := ⟨2, ![128, 4096]⟩
abbrev SN : Shape := ⟨2, ![4096, 4096]⟩
abbrev SW : Shape := ⟨1, ![128]⟩

/-- A feature row scaled by its weight: w(d) * f(d,i). -/
def scaled (f : SF.Idx → EReal) (w : SW.Idx → EReal) (d : Fin 128) (i : Fin 4096) : EReal :=
  w (ix1 d) * f (ix2 d i)

/-- The score S(i,j): the exponential of the inner product of node i's scaled queries with node j's scaled keys. -/
def score (f : SF.Idx → EReal) (wq wk : SW.Idx → EReal) (i j : Fin 4096) : EReal :=
  Ideal.exp (∑ d : Fin 128, scaled f wq d i * scaled f wk d j)

/-- The neighbour sum D(i,j): row j of the adjacency against column i of the scores. -/
def nbrSum (f : SF.Idx → EReal) (nbr : SN.Idx → EReal) (wq wk : SW.Idx → EReal) (i j : Fin 4096) : EReal :=
  ∑ m : Fin 4096, nbr (ix2 j m) * score f wq wk m i

/-- The result array: S(i,j) / D(i,j). -/
def G (f : SF.Idx → EReal) (nbr : SN.Idx → EReal) (wq wk : SW.Idx → EReal) : SN.Idx → EReal :=
  fun x => Ideal.div (score f wq wk (x 0) (x 1)) (nbrSum f nbr wq wk (x 0) (x 1))

theorem G_apply (f : SF.Idx → EReal) (nbr : SN.Idx → EReal) (wq wk : SW.Idx → EReal) (i j : Fin 4096) :
    G f nbr wq wk (ix2 i j) = Ideal.div (score f wq wk i j) (nbrSum f nbr wq wk i j) := rfl

end Cert.Spec

end
-- ==== Proof.HostValue.lean ====
/-
  What the host stretches leave in the buffers the two regions read, on the extended reals.

  Before the first region the queries and the keys are the feature array scaled row by row by a weight vector:
  entry (d, i) is w(d) * f(d, i), the narrowing being the identity on extended reals.  Before the second region the two
  score arrays are as the first region's write-backs leave them, and the narrowed adjacency is the adjacency itself.
-/
import proofs.«150088_j74586402063284_2_alg».proof.Proof.Contents
import proofs.«150088_j74586402063284_2_alg».proof.Proof.Spec
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx

variable (m : (ℓ : Loc nD τ sig) → Buf (Elt Ideal) ℓ) (ρ : Dev nD → PrngReg) (c : Dev nD)

/-- A weight vector broadcast along the nodes and multiplied into the feature array, read at an index. -/
theorem scale_apply (f : FVec Ideal S128x4096 .f32) (w : FVec Ideal S128 .f32) (i : S128x4096.Idx) :
    (truncf .bf16 (mulf (broadcastInDim S128x4096 ![0, 1] bcast_S128x1_S128x4096_0_1
      (broadcastInDim S128x1 ![0] bcast_S128_S128x1_0 w)) f) bitsLt_bf16_f32 : FVec Ideal S128x4096 .bf16) i
      = Cert.Spec.scaled f w (i 0) (i 1) := by
  rw [truncf_apply, mulf_apply]
  rw [broadcastInDim_apply _ bcast_S128x1_S128x4096_0_1 _ i (ix2 (i 0) (0 : Fin 1)) (fun a => match a with
    | ⟨0, _⟩ => by show (i 0).val = if (128 : Nat) = 1 then 0 else (i 0).val; rw [if_neg (by decide)]
    | ⟨1, _⟩ => by show 0 = if (1 : Nat) = 1 then 0 else (i 1).val; rw [if_pos rfl])]
  rw [broadcastInDim_apply _ bcast_S128_S128x1_0 w (ix2 (i 0) (0 : Fin 1)) (ix1 (i 0)) (fun a => match a with
    | ⟨0, _⟩ => by show (i 0).val = if (128 : Nat) = 1 then 0 else (i 0).val; rw [if_neg (by decide)])]
  unfold Cert.Spec.scaled
  exact congrArg (fun j => w (ix1 (i 0)) * f j) (eq_ix2 i)

theorem scaled_queries : (Hand.V1 m ρ c main_v3 : S128x4096.Idx → EReal) = fun i =>
    Cert.Spec.scaled (m ((c : Thread nD τ).loc main_arg0)) (m ((c : Thread nD τ).loc main_arg2)) (i 0) (i 1) := by
  show StableHlo.after hostOps0 (W0 m ρ c) (Proc.devRef .tc main_v3) = _
  after_results
  funext i
  exact scale_apply _ _ i

theorem scaled_keys : (Hand.V1 m ρ c main_v7 : S128x4096.Idx → EReal) = fun i =>
    Cert.Spec.scaled (m ((c : Thread nD τ).loc main_arg0)) (m ((c : Thread nD τ).loc main_arg3)) (i 0) (i 1) := by
  show StableHlo.after hostOps0 (W0 m ρ c) (Proc.devRef .tc main_v7) = _
  after_results
  funext i
  exact scale_apply _ _ i

/-- The narrow score array enters the second region as the first region's write-backs leave it. -/
theorem entry_scores_narrow : Hand.V3 m ρ c main_v8_0 = (dat0 (Hand.V1 m ρ) c).arrAt 2 cfg0.N :=
  (StableHlo.after_of_writes_sub hostOps1 _ hostOps1_writes (by decide)).trans (W2_arr m ρ c 2)

/-- The wide score array enters the second region as the first region's write-backs leave it. -/
theorem entry_scores_wide : Hand.V3 m ρ c main_v8_1 = (dat0 (Hand.V1 m ρ) c).arrAt 3 cfg0.N :=
  (StableHlo.after_of_writes_sub hostOps1 _ hostOps1_writes (by decide)).trans (W2_arr m ρ c 3)

/-- The narrowed adjacency is the adjacency. -/
theorem entry_adjacency : (Hand.V3 m ρ c main_v9 : S4096x4096.Idx → EReal) = m ((c : Thread nD τ).loc main_arg1) := by
  show StableHlo.after hostOps1 (W2 m ρ c) (Proc.devRef .tc main_v9) = _
  after_results
  have h : W2 m ρ c (Proc.devRef .tc main_arg1) = m ((c : Thread nD τ).loc main_arg1) :=
    calc W2 m ρ c (Proc.devRef .tc main_arg1)
      _ = W1 m ρ c (Proc.devRef .tc main_arg1) := W2_of_ne m ρ c main_arg1 (by decide)
      _ = W0 m ρ c (Proc.devRef .tc main_arg1) := StableHlo.after_of_writes_sub hostOps0 _ hostOps0_writes (by decide)
      _ = m ((c : Thread nD τ).loc main_arg1) := rfl
  rw [h]
  rfl

end Cert.KernelIdeal.Val

end
-- ==== Proof.LibMatmulSumTN.lean ====
/-
  A matrix product contracting the FIRST axis of both operands, read at an index, at the ideal values.

  For dimension numbers that contract the left operand's axis 0 with the right operand's axis 0, with no batch axis — a
  [K, M] by [K, N] product into [M, N], the product of the transpose of the left matrix with the right one — the operand
  indices at result index `j` and contraction index `q` are (q, j 0) and (q, j 1).  So a `tpu.matmul` into a zero
  accumulator is, at every result index, the sum over `k : Fin K` of `l (k, j 0) * r (k, j 1)` on the extended reals.
-/
import Idealize.ShloMosaic.PureOps.Ideal.Laws
import Idealize.ShloMosaic.Lib.ValueIdx

noncomputable section

namespace Cert.LibMatmulSumTN

open Idealize.ShloMosaic Idealize.ShloMosaic.ValueIdx

variable {M K N : Nat} (d : DotDims ⟨2, ![K, M]⟩ ⟨2, ![K, N]⟩ ⟨2, ![M, N]⟩)

/-- The one contraction axis has extent `K`. -/
theorem contr_rank (hlc : d.lhsContracting = [0]) : d.contr.rank = 1 := by
  rw [d.rank_contr, hlc]; rfl

theorem contr_size (hlc : d.lhsContracting = [0]) : d.contr.size ⟨0, by rw [contr_rank d hlc]; exact Nat.one_pos⟩ = K := by
  rw [d.size_contr 0 (by rw [hlc]; exact Nat.one_pos)]
  simp only [hlc, List.getElem_cons_zero]
  rfl

/-- Column coordinate of the left operand's index: the result's row. -/
theorem lhsIdx_col (hln : d.lhsNonContracting = [1]) (hlb : d.lhsBatch = [])
    (j : (⟨2, ![M, N]⟩ : Shape).Idx) (q : d.contr.Idx) : (d.lhsIdx j q 1).val = (j 0).val := by
  unfold DotDims.lhsIdx
  rw [dif_neg (by rw [hlb]; exact List.not_mem_nil), dif_pos (by rw [hln]; exact List.mem_singleton.mpr rfl)]
  simp only [Fin.val_cast]
  have key : ∀ (p r : Nat) (hp : p < 2) (hr : r < 2), p = r →
      (j ⟨p, hp⟩).val = (j ⟨r, hr⟩).val := fun p r hp hr h => by subst h; rfl
  exact key _ _ _ _ (by simp [hlb, hln])

/-- Column coordinate of the right operand's index: the result's column. -/
theorem rhsIdx_col (hln : d.lhsNonContracting = [1]) (hrn : d.rhsNonContracting = [1]) (hlb : d.lhsBatch = [])
    (hrb : d.rhsBatch = []) (j : (⟨2, ![M, N]⟩ : Shape).Idx) (q : d.contr.Idx) : (d.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (p r : Nat) (hp : p < 2) (hr : r < 2), p = r →
      (j ⟨p, hp⟩).val = (j ⟨r, hr⟩).val := fun p r hp hr h => by subst h; rfl
  exact key _ _ _ _ (by simp [hlb, hln, hrn])

/-- The contraction sum, re-indexed over `Fin K`. -/
theorem sum_contr (hlc : d.lhsContracting = [0]) (hrc : d.rhsContracting = [0]) (hln : d.lhsNonContracting = [1])
    (hrn : d.rhsNonContracting = [1]) (hlb : d.lhsBatch = []) (hrb : d.rhsBatch = [])
    (l : (⟨2, ![K, M]⟩ : Shape).Idx → EReal) (r : (⟨2, ![K, N]⟩ : Shape).Idx → EReal) (j : (⟨2, ![M, N]⟩ : Shape).Idx) :
    ∑ q : d.contr.Idx, l (d.lhsIdx j q) * r (d.rhsIdx j q) = ∑ k : Fin K, l (ix2 k (j 0)) * r (ix2 k (j 1)) := by
  rw [← Equiv.sum_comp (contrEquiv1 d K (contr_rank d hlc) (contr_size d hlc)).symm]
  refine Finset.sum_congr rfl fun k _ => ?_
  have hk := contrEquiv1_symm_val d K (contr_rank d hlc) (contr_size d hlc) k
  have el : d.lhsIdx j ((contrEquiv1 d K (contr_rank d hlc) (contr_size d hlc)).symm k) = ix2 k (j 0) :=
    funext fun a => Fin.ext (by
      match a with
      | ⟨0, _⟩ => exact (d.lhsIdx_val_of_single hlc _ _).trans hk
      | ⟨1, _⟩ => exact lhsIdx_col d hln hlb _ _)
  have er : d.rhsIdx j ((contrEquiv1 d K (contr_rank d hlc) (contr_size d hlc)).symm k) = ix2 k (j 1) :=
    funext fun a => Fin.ext (by
      match a with
      | ⟨0, _⟩ => exact (d.rhsIdx_val_of_single hrc _ _).trans hk
      | ⟨1, _⟩ => exact rhsIdx_col d hln hrn hlb hrb _ _)
  exact congrArg₂ (fun a b => l a * r b) el er

/-- A `tpu.matmul` of such a product into the zero splat, at an index: the sum of products over the shared axis. -/
theorem matmul_zero_apply {φ₁ φ₂ : FTy} (hlc : d.lhsContracting = [0]) (hrc : d.rhsContracting = [0])
    (hln : d.lhsNonContracting = [1]) (hrn : d.rhsNonContracting = [1]) (hlb : d.lhsBatch = []) (hrb : d.rhsBatch = [])
    (prec : Option ContractPrecision) (l : FVec Ideal ⟨2, ![K, M]⟩ φ₁) (r : FVec Ideal ⟨2, ![K, N]⟩ φ₂)
    (j : (⟨2, ![M, N]⟩ : Shape).Idx) :
    FloatOps.matmul d prec l r (constant ⟨2, ![M, N]⟩ .f32 0x00000000#32) j = ∑ k : Fin K, l (ix2 k (j 0)) * r (ix2 k (j 1)) :=
  (Ideal.matmul_constant_zero_apply d prec l r j).trans (sum_contr d hlc hrc hln hrn hlb hrb l r j)

end Cert.LibMatmulSumTN

end
-- ==== Proof.LibMatmulSumKN.lean ====
/-
  A matrix product contracting the FIRST axis of the left operand with the SECOND axis of the right operand, read at an
  index, at the ideal values.

  For dimension numbers that contract the left operand's axis 0 with the right operand's axis 1, with no batch axis — a
  [K, M] by [N, K] product into [M, N], the product of the transpose of the left matrix with the transpose of the right
  one — the operand indices at result index `j` and contraction index `q` are (q, j 0) and (j 1, q).  So the product
  accumulated onto a zero accumulator is, at every result index, the sum over `k : Fin K` of `l (k, j 0) * r (j 1, k)` on the
  extended reals.
-/
import Idealize.ShloMosaic.PureOps.Ideal.Laws
import Idealize.ShloMosaic.Lib.ValueIdx

noncomputable section

namespace Cert.LibMatmulSumKN

open Idealize.ShloMosaic Idealize.ShloMosaic.ValueIdx

variable {M K N : Nat} (d : DotDims ⟨2, ![K, M]⟩ ⟨2, ![N, K]⟩ ⟨2, ![M, N]⟩)

/-- There is one contraction axis. -/
theorem contr_rank (hlc : d.lhsContracting = [0]) : d.contr.rank = 1 := by
  rw [d.rank_contr, hlc]; rfl

/-- The one contraction axis has extent `K`. -/
theorem contr_size (hlc : d.lhsContracting = [0]) : d.contr.size ⟨0, by rw [contr_rank d hlc]; exact Nat.one_pos⟩ = K := by
  rw [d.size_contr 0 (by rw [hlc]; exact Nat.one_pos)]
  simp only [hlc, List.getElem_cons_zero]
  rfl

/-- Column coordinate of the left operand's index: the result's row. -/
theorem lhsIdx_col (hln : d.lhsNonContracting = [1]) (hlb : d.lhsBatch = [])
    (j : (⟨2, ![M, N]⟩ : Shape).Idx) (q : d.contr.Idx) : (d.lhsIdx j q 1).val = (j 0).val := by
  unfold DotDims.lhsIdx
  rw [dif_neg (by rw [hlb]; exact List.not_mem_nil), dif_pos (by rw [hln]; exact List.mem_singleton.mpr rfl)]
  simp only [Fin.val_cast]
  have key : ∀ (p r : Nat) (hp : p < 2) (hr : r < 2), p = r →
      (j ⟨p, hp⟩).val = (j ⟨r, hr⟩).val := fun p r hp hr h => by subst h; rfl
  exact key _ _ _ _ (by simp [hlb, hln])

/-- Row coordinate of the right operand's index: the result's column. -/
theorem rhsIdx_row (hln : d.lhsNonContracting = [1]) (hrn : d.rhsNonContracting = [0]) (hlb : d.lhsBatch = [])
    (hrb : d.rhsBatch = []) (j : (⟨2, ![M, N]⟩ : Shape).Idx) (q : d.contr.Idx) : (d.rhsIdx j q 0).val = (j 1).val := by
  unfold DotDims.rhsIdx
  rw [dif_neg (by rw [hrb]; exact List.not_mem_nil), dif_pos (by rw [hrn]; exact List.mem_singleton.mpr rfl)]
  simp only [Fin.val_cast]
  have key : ∀ (p r : Nat) (hp : p < 2) (hr : r < 2), p = r →
      (j ⟨p, hp⟩).val = (j ⟨r, hr⟩).val := fun p r hp hr h => by subst h; rfl
  exact key _ _ _ _ (by simp [hlb, hln, hrn])

/-- The contraction sum, re-indexed over `Fin K`. -/
theorem sum_contr (hlc : d.lhsContracting = [0]) (hrc : d.rhsContracting = [1]) (hln : d.lhsNonContracting = [1])
    (hrn : d.rhsNonContracting = [0]) (hlb : d.lhsBatch = []) (hrb : d.rhsBatch = [])
    (l : (⟨2, ![K, M]⟩ : Shape).Idx → EReal) (r : (⟨2, ![N, K]⟩ : Shape).Idx → EReal) (j : (⟨2, ![M, N]⟩ : Shape).Idx) :
    ∑ q : d.contr.Idx, l (d.lhsIdx j q) * r (d.rhsIdx j q) = ∑ k : Fin K, l (ix2 k (j 0)) * r (ix2 (j 1) k) := by
  rw [← Equiv.sum_comp (contrEquiv1 d K (contr_rank d hlc) (contr_size d hlc)).symm]
  refine Finset.sum_congr rfl fun k _ => ?_
  have hk := contrEquiv1_symm_val d K (contr_rank d hlc) (contr_size d hlc) k
  have el : d.lhsIdx j ((contrEquiv1 d K (contr_rank d hlc) (contr_size d hlc)).symm k) = ix2 k (j 0) :=
    funext fun a => Fin.ext (by
      match a with
      | ⟨0, _⟩ => exact (d.lhsIdx_val_of_single hlc _ _).trans hk
      | ⟨1, _⟩ => exact lhsIdx_col d hln hlb _ _)
  have er : d.rhsIdx j ((contrEquiv1 d K (contr_rank d hlc) (contr_size d hlc)).symm k) = ix2 (j 1) k :=
    funext fun a => Fin.ext (by
      match a with
      | ⟨0, _⟩ => exact rhsIdx_row d hln hrn hlb hrb _ _
      | ⟨1, _⟩ => exact (d.rhsIdx_val_of_single hrc _ _).trans hk)
  exact congrArg₂ (fun a b => l a * r b) el er

/-- Such a product accumulated onto the zero splat, at an index: the sum of products over the shared axis. -/
theorem matmul_zero_apply {φ₁ φ₂ : FTy} (hlc : d.lhsContracting = [0]) (hrc : d.rhsContracting = [1])
    (hln : d.lhsNonContracting = [1]) (hrn : d.rhsNonContracting = [0]) (hlb : d.lhsBatch = []) (hrb : d.rhsBatch = [])
    (prec : Option ContractPrecision) (l : FVec Ideal ⟨2, ![K, M]⟩ φ₁) (r : FVec Ideal ⟨2, ![N, K]⟩ φ₂)
    (j : (⟨2, ![M, N]⟩ : Shape).Idx) :
    FloatOps.matmul d prec l r (constant ⟨2, ![M, N]⟩ .f32 0x00000000#32) j = ∑ k : Fin K, l (ix2 k (j 0)) * r (ix2 (j 1) k) :=
  (Ideal.matmul_constant_zero_apply d prec l r j).trans (sum_contr d hlc hrc hln hrn hlb hrb l r j)

end Cert.LibMatmulSumKN

end
-- ==== Proof.Payloads.lean ====
/-
  The values the two kernel functions store, read at an index, on the extended reals.

  The score function stores exp of the product of the transposed first operand with the second, in both formats (the
  narrowing is the identity on extended reals).  The edge-normalisation function stores zero on its first step, adds
  to the stored sum the product of the transposed left block with the transposed right block on every step, and
  stores the quotient on its last step.
-/
import proofs.«150088_j74586402063284_2_alg».proof.Proof.Gen.KernelIdeal.Skeleton
import proofs.«150088_j74586402063284_2_alg».proof.Proof.LibMatmulSumTN
import Idealize.ShloMosaic.Lib.Pipeline.Value
import proofs.«150088_j74586402063284_2_alg».proof.Proof.LibMatmulSumKN

noncomputable section

namespace Cert.KernelIdeal.Payloads

open Cert.KernelIdeal Cert.KernelIdeal.Gen Idealize.ShloMosaic Idealize.ShloMosaic.ValueIdx

/-- The score before narrowing: exp of the inner product of column `p` of the first operand with column `q` of the second. -/
theorem k0_pay1_apply (x0 x1 : FVec Ideal S128x1024 .bf16) (p q : Fin 1024) :
    k0_pay1 (F := Ideal) x0 x1 (ix2 p q) = Ideal.exp (∑ d : Fin 128, x0 (ix2 d p) * x1 (ix2 d q)) := by
  unfold k0_pay1
  rw [shapeCast_self, shapeCast_self]
  show Ideal.exp (FloatOps.matmul dot_S128x1024_S128x1024_S1024x1024_0_0_1_1_n_n none x0 x1
    (constant S1024x1024 .f32 0x00000000#32) (ix2 p q)) = _
  rw [Cert.LibMatmulSumTN.matmul_zero_apply dot_S128x1024_S128x1024_S1024x1024_0_0_1_1_n_n rfl rfl rfl rfl rfl rfl]

/-- The narrowed score is the same extended real. -/
theorem k0_pay2_apply (x0 x1 : FVec Ideal S128x1024 .bf16) (p q : Fin 1024) :
    k0_pay2 (F := Ideal) x0 x1 (ix2 p q) = Ideal.exp (∑ d : Fin 128, x0 (ix2 d p) * x1 (ix2 d q)) := by
  unfold k0_pay2
  exact k0_pay1_apply x0 x1 p q

/-- The first step's store is zero everywhere. -/
theorem k1_pay1_apply (p q : Fin 1024) : k1_pay1 (F := Ideal) (ix2 p q) = 0 := by
  unfold k1_pay1
  rw [shapeCast_self]
  exact Ideal.ofBits_zero_f32

/-- A step's store: the stored sum plus the inner product of column `p` of the left block with row `q` of the right block. -/
theorem k1_pay2_apply (x3 : FVec Ideal S512x1024 .bf16) (x5 : FVec Ideal S1024x512 .bf16) (a : FVec Ideal S1024x1024 .f32)
    (p q : Fin 1024) :
    k1_pay2 (F := Ideal) x3 x5 a (ix2 p q) = a (ix2 p q) + ∑ r : Fin 512, x3 (ix2 r p) * x5 (ix2 q r) := by
  unfold k1_pay2
  rw [shapeCast_self, shapeCast_self, shapeCast_self]
  show a (ix2 p q) + FloatOps.matmul dot_S512x1024_S1024x512_S1024x1024_0_1_1_0_n_n none x3 x5
    (constant S1024x1024 .f32 0x00000000#32) (ix2 p q) = _
  rw [Cert.LibMatmulSumKN.matmul_zero_apply dot_S512x1024_S1024x512_S1024x1024_0_1_1_0_n_n rfl rfl rfl rfl rfl rfl]

/-- The last step's store: the quotient of the two stored values. -/
theorem k1_pay3_apply (s a : FVec Ideal S1024x1024 .f32) (p q : Fin 1024) :
    k1_pay3 (F := Ideal) s a (ix2 p q) = Ideal.div (s (ix2 p q)) (a (ix2 p q)) := by
  unfold k1_pay3
  rw [shapeCast_self]
  rfl

end Cert.KernelIdeal.Payloads

end
-- ==== Proof.ScoreValue.lean ====
/-
  The two score arrays as whole-array functions.

  The first kernel region walks a 4 x 4 grid of tiles.  At tile (i, j) it reads columns 1024 i .. 1024 i + 1023 of the
  scaled queries and columns 1024 j .. 1024 j + 1023 of the scaled keys, and writes into tile (i, j) of each of its two
  result arrays the exponential of the inner products of those columns.  The sixteen tiles cover the 4096 x 4096
  arrays, so after the region each result array holds, at (I, J),
      exp (sum over the 128 features d of Q(d, I) * K(d, J)).
-/
import proofs.«150088_j74586402063284_2_alg».proof.Proof.RegionData
import proofs.«150088_j74586402063284_2_alg».proof.Proof.Payloads
import Idealize.ShloMosaic.Lib.Pipeline.Value
import Idealize.ShloMosaic.Lib.ValueIdx

set_option maxRecDepth 16384

noncomputable section

open scoped BigOperators

namespace Cert.KernelIdeal.Val

open Cert.KernelIdeal Cert.KernelIdeal.Gen Cert.KernelIdeal.Hand Cert.KernelIdeal.Payloads
open Idealize.ShloMosaic Idealize.ShloMosaic.TcCoe Idealize.ShloMosaic.ValueIdx Idealize.SL.Sem
open Idealize.ShloMosaic.Pipeline (Dat)

-- the buffer contents when the region is entered
variable (V : (c : Dev nD) → (b : Ref sig .tc) → Buf (Elt Ideal) ((c : Thread nD τ).loc b))

/-- WHICH TILE A GRID POINT WORKS ON.  The query window sits at block (0, i) and the key window at block (0, j) where
    (i, j) is the block of the two result windows, both of which sit at the same block; i and j stay below 4. -/
theorem score_tile_of_point : ∀ t : Fin cfg0.N,
    win0_0.index t (0 : Fin 2) = 0 ∧ win0_0.index t (1 : Fin 2) = win0_2.index t (0 : Fin 2)
    ∧ win0_1.index t (0 : Fin 2) = 0 ∧ win0_1.index t (1 : Fin 2) = win0_2.index t (1 : Fin 2)
    ∧ win0_2.index t (0 : Fin 2) ≤ 3 ∧ win0_2.index t (1 : Fin 2) ≤ 3
    ∧ win0_3.index t (0 : Fin 2) = win0_2.index t (0 : Fin 2) ∧ win0_3.index t (1 : Fin 2) = win0_2.index t (1 : Fin 2) :=
  (by decide +kernel : ∀ t : Fin grid0.N, _)

/-- EVERY TILE IS SOME POINT'S: the 4 x 4 grid reaches each block (a, b) of the result arrays. -/
theorem point_of_tile : ∀ (a b : Fin 4), ∃ t : Fin cfg0.N, win0_2.index t = ![a.val, b.val] :=
  (by decide +kernel : ∀ (a b : Fin 4), ∃ t : Fin grid0.N, win0_2.index t = ![a.val, b.val])

/-- The score at (I, J) of queries Q and keys K: the exponential of the inner product of column I of Q with
    column J of K. -/
abbrev scoreOf (Q K : S128x4096.Idx → EReal) : S4096x4096.Idx → EReal :=
  fun x => Ideal.exp (∑ d : Fin 128, Q (ix2 d (x 0)) * K (ix2 d (x 1)))

/-- THE QUERY BLOCK OF A POINT: at tile (i, j), entry (d, p) of the query window's block is Q(d, 1024 i + p). -/
theorem query_block_read (c : Dev nD) (t : Fin cfg0.N) (d : Fin 128) (p : Fin 1024) (P : Fin 4096)
    (hP : P.val = win0_2.index t (0 : Fin 2) * 1024 + p.val) :
    (iblk0 V c 0 t : S128x1024.Idx → EReal) (ix2 d p) = (V c main_v3 : S128x4096.Idx → EReal) (ix2 d P) := by
  obtain ⟨e0, e1, -⟩ := score_tile_of_point t
  unfold iblk0
  rw [View.read_apply]
  show V c main_v3 _ = V c main_v3 _
  congr 1
  funext a
  apply Fin.ext
  match a with
  | ⟨0, _⟩ => show win0_0.index t (0 : Fin 2) * 128 + 1 * d.val = d.val; omega
  | ⟨1, _⟩ => show win0_0.index t (1 : Fin 2) * 1024 + 1 * p.val = P.val; omega

/-- THE KEY BLOCK OF A POINT: at tile (i, j), entry (d, q) of the key window's block is K(d, 1024 j + q). -/
theorem key_block_read (c : Dev nD) (t : Fin cfg0.N) (d : Fin 128) (q : Fin 1024) (J : Fin 4096)
    (hJ : J.val = win0_2.index t (1 : Fin 2) * 1024 + q.val) :
    (iblk0 V c 1 t : S128x1024.Idx → EReal) (ix2 d q) = (V c main_v7 : S128x4096.Idx → EReal) (ix2 d J) := by
  obtain ⟨-, -, e2, e3, -⟩ := score_tile_of_point t
  unfold iblk0
  rw [View.read_apply]
  show V c main_v7 _ = V c main_v7 _
  congr 1
  funext a
  apply Fin.ext
  match a with
  | ⟨0, _⟩ => show win0_1.index t (0 : Fin 2) * 128 + 1 * d.val = d.val; omega
  | ⟨1, _⟩ => show win0_1.index t (1 : Fin 2) * 1024 + 1 * q.val = J.val; omega

/-- WHAT A POINT WRITES BACK, NARROW FORMAT: the block a point writes into the narrow result array is that block of
    the score function of the queries and keys the region finds. -/
theorem score_tile_written2 (c : Dev nD) (t : Fin cfg0.N) :
    (dat0 (F := Ideal) V c).flushed 2 t
      = ((cfg0.win 2).blk t).view.read (Elt Ideal) (scoreOf (V c main_v3) (V c main_v7)) := by
  show (cfg0.win 2).cut (grid0.coords t) ((dat0 V c).after 2 t) = _
  rw [after0_2]
  funext j
  obtain ⟨p, q, rfl⟩ : ∃ (p q : Fin 1024), j = ix2 p q := ⟨j 0, j 1, eq_ix2 j⟩
  rw [View.read_apply]
  show k0_pay2 (iblk0 V c 0 t) (iblk0 V c 1 t) (ix2 p q)
    = scoreOf (V c main_v3) (V c main_v7) (((cfg0.win 2).blk t).view.emb (ix2 p q))
  rw [k0_pay2_apply]
  exact congrArg Ideal.exp (Finset.sum_congr rfl fun d _ => by
    rw [query_block_read V c t d p ((((cfg0.win 2).blk t).view.emb (ix2 p q)) 0)
          (by show win0_2.index t (0 : Fin 2) * 1024 + 1 * p.val = _; omega),
        key_block_read V c t d q ((((cfg0.win 2).blk t).view.emb (ix2 p q)) 1)
          (by show win0_2.index t (1 : Fin 2) * 1024 + 1 * q.val = _; omega)])

/-- WHAT A POINT WRITES BACK, WIDE FORMAT: the same block of the same function into the wide result array. -/
theorem score_tile_written3 (c : Dev nD) (t : Fin cfg0.N) :
    (dat0 (F := Ideal) V c).flushed 3 t
      = ((cfg0.win 3).blk t).view.read (Elt Ideal) (scoreOf (V c main_v3) (V c main_v7)) := by
  obtain ⟨-, -, -, -, -, -, e6, e7⟩ := score_tile_of_point t
  show (cfg0.win 3).cut (grid0.coords t) ((dat0 V c).after 3 t) = _
  rw [after0_3]
  funext j
  obtain ⟨p, q, rfl⟩ : ∃ (p q : Fin 1024), j = ix2 p q := ⟨j 0, j 1, eq_ix2 j⟩
  rw [View.read_apply]
  show k0_pay1 (iblk0 V c 0 t) (iblk0 V c 1 t) (ix2 p q)
    = scoreOf (V c main_v3) (V c main_v7) (((cfg0.win 3).blk t).view.emb (ix2 p q))
  rw [k0_pay1_apply]
  exact congrArg Ideal.exp (Finset.sum_congr rfl fun d _ => by
    rw [query_block_read V c t d p ((((cfg0.win 3).blk t).view.emb (ix2 p q)) 0)
          (by show win0_3.index t (0 : Fin 2) * 1024 + 1 * p.val = _; omega),
        key_block_read V c t d q ((((cfg0.win 3).blk t).view.emb (ix2 p q)) 1)
          (by show win0_3.index t (1 : Fin 2) * 1024 + 1 * q.val = _; omega)])

/-- An index of the narrow result array is in a point's block iff each coordinate is in the block's range. -/
theorem in_tile2 (t : Fin cfg0.N) (x : S4096x4096.Idx) :
    x ∈ ((cfg0.win 2).blk t).view.set
      ↔ ∀ a : Fin 2, win0_2.index t a * S1024x1024.size a ≤ (x a).val
          ∧ (x a).val < win0_2.index t a * S1024x1024.size a + S1024x1024.size a := by
  show x ∈ ((View.whole main_v8_0).slice (win0_2.rect t)).set ↔ _
  rw [View.set_slice_whole, Rect.mem_set_unit]
  exact Iff.rfl

/-- The same for the wide result array. -/
theorem in_tile3 (t : Fin cfg0.N) (x : S4096x4096.Idx) :
    x ∈ ((cfg0.win 3).blk t).view.set
      ↔ ∀ a : Fin 2, win0_3.index t a * S1024x1024.size a ≤ (x a).val
          ∧ (x a).val < win0_3.index t a * S1024x1024.size a + S1024x1024.size a := by
  show x ∈ ((View.whole main_v8_1).slice (win0_3.rect t)).set ↔ _
  rw [View.set_slice_whole, Rect.mem_set_unit]
  exact Iff.rfl

/-- THE TILES COVER THE NARROW ARRAY: index (I, J) lies in the block of the point working on tile
    (I / 1024, J / 1024), and every point writes its block back. -/
theorem tiles_cover2 (x : S4096x4096.Idx) :
    ∃ t : Fin cfg0.N, (cfg0.win 2).flush t = true ∧ x ∈ ((cfg0.win 2).blk t).view.set := by
  have h0 : (x 0).val < 4096 := (x 0).isLt
  have h1 : (x 1).val < 4096 := (x 1).isLt
  obtain ⟨t, ht⟩ := point_of_tile ⟨(x 0).val / 1024, by omega⟩ ⟨(x 1).val / 1024, by omega⟩
  have q0 : win0_2.index t (0 : Fin 2) = (x 0).val / 1024 := congrFun ht 0
  have q1 : win0_2.index t (1 : Fin 2) = (x 1).val / 1024 := congrFun ht 1
  refine ⟨t, flush0_2 t, ?_⟩
  rw [in_tile2]
  intro a
  match a with
  | ⟨0, _⟩ =>
    show win0_2.index t (0 : Fin 2) * 1024 ≤ (x 0).val ∧ (x 0).val < win0_2.index t (0 : Fin 2) * 1024 + 1024
    omega
  | ⟨1, _⟩ =>
    show win0_2.index t (1 : Fin 2) * 1024 ≤ (x 1).val ∧ (x 1).val < win0_2.index t (1 : Fin 2) * 1024 + 1024
    omega

/-- THE TILES COVER THE WIDE ARRAY, by the same point. -/
theorem tiles_cover3 (x : S4096x4096.Idx) :
    ∃ t : Fin cfg0.N, (cfg0.win 3).flush t = true ∧ x ∈ ((cfg0.win 3).blk t).view.set := by
  have h0 : (x 0).val < 4096 := (x 0).isLt
  have h1 : (x 1).val < 4096 := (x 1).isLt
  obtain ⟨t, ht⟩ := point_of_tile ⟨(x 0).val / 1024, by omega⟩ ⟨(x 1).val / 1024, by omega⟩
  obtain ⟨-, -, -, -, -, -, e6, e7⟩ := score_tile_of_point t
  have q0 : win0_2.index t (0 : Fin 2) = (x 0).val / 1024 := congrFun ht 0
  have q1 : win0_2.index t (1 : Fin 2) = (x 1).val / 1024 := congrFun ht 1
  refine ⟨t, flush0_3 t, ?_⟩
  rw [in_tile3]
  intro a
  match a with
  | ⟨0, _⟩ =>
    show win0_3.index t (0 : Fin 2) * 1024 ≤ (x 0).val ∧ (x 0).val < win0_3.index t (0 : Fin 2) * 1024 + 1024
    omega
  | ⟨1, _⟩ =>
    show win0_3.index t (1 : Fin 2) * 1024 ≤ (x 1).val ∧ (x 1).val < win0_3.index t (1 : Fin 2) * 1024 + 1024
    omega

/-- THE NARROW SCORE ARRAY after the region: at (I, J) the exponential of the inner product of column I of the
    queries with column J of the keys. -/
theorem score_array2 (c : Dev nD) (Q K : S128x4096.Idx → EReal) (hq : V c main_v3 = Q) (hk : V c main_v7 = K) :
    (dat0 (F := Ideal) V c).arrAt 2 cfg0.N
      = fun x => Ideal.exp (∑ d : Fin 128, Q (ix2 d (x 0)) * K (ix2 d (x 1))) := by
  subst hq hk
  exact (dat0 (F := Ideal) V c).arrAt_eq_of_cover 2 (scoreOf (V c main_v3) (V c main_v7))
    (fun t _ => score_tile_written2 V c t) tiles_cover2

/-- THE WIDE SCORE ARRAY after the region: the same function. -/
theorem score_array3 (c : Dev nD) (Q K : S128x4096.Idx → EReal) (hq : V c main_v3 = Q) (hk : V c main_v7 = K) :
    (dat0 (F := Ideal) V c).arrAt 3 cfg0.N
      = fun x => Ideal.exp (∑ d : Fin 128, Q (ix2 d (x 0)) * K (ix2 d (x 1))) := by
  subst hq hk
  exact (dat0 (F := Ideal) V c).arrAt_eq_of_cover 3 (scoreOf (V c main_v3) (V c main_v7))
    (fun t _ => score_tile_written3 V c t) tiles_cover3

end Cert.KernelIdeal.Val

end
-- ==== Proof.LibSumTiles.lean ====
/-
  Regrouping a sum over a range cut into equal tiles.

  The indices below `n * b` are exactly the numbers `t * b + r` with `t < n` the tile and `r < b` the
  place inside the tile, each once. A sum over the whole range, in a commutative monoid, is therefore the
  sum over the tiles of each tile's own sum.
-/
import Mathlib.Algebra.BigOperators.Fin
import Mathlib.Logic.Equiv.Fin.Basic

namespace Cert.LibSumTiles

open scoped BigOperators

/-- Place `r` of tile `t` lies below `n * b`: `t * b + r < t * b + b = (t + 1) * b ≤ n * b`. -/
theorem tile_lt {n b : Nat} (t : Fin n) (r : Fin b) : t.val * b + r.val < n * b :=
  calc t.val * b + r.val < t.val * b + b := Nat.add_lt_add_left r.isLt _
    _ = (t.val + 1) * b := (Nat.succ_mul _ _).symm
    _ ≤ n * b := Nat.mul_le_mul_right b t.isLt

/-- A sum over `Fin (n * b)` is the sum over the `n` tiles of the sum over the `b` places of a tile, the
    summand taken at index `t * b + r`. It holds in any additive commutative monoid: the map
    `(t, r) ↦ t * b + r` is a bijection from pairs onto the range, and a finite sum does not depend on the
    order of its terms. -/
theorem sum_tiles {M : Type*} [AddCommMonoid M] (n b : Nat) (f : Fin (n * b) → M) :
    ∑ i, f i = ∑ t : Fin n, ∑ r : Fin b, f ⟨t.val * b + r.val, tile_lt t r⟩ := by
  rw [← Fintype.sum_prod_type']
  refine (Fintype.sum_equiv finProdFinEquiv _ _ ?_).symm
  rintro ⟨t, r⟩
  refine congrArg f (Fin.ext ?_)
  show t.val * b + r.val = r.val + b * t.val
  rw [Nat.add_comm, Nat.mul_comm]

/-- 8192 indices as 64 tiles of 128. -/
theorem sum_tiles_64_128 {M : Type*} [AddCommMonoid M] (f : Fin 8192 → M) :
    ∑ i, f i = ∑ t : Fin 64, ∑ r : Fin 128,
      f ⟨t.val * 128 + r.val, tile_lt (n := 64) (b := 128) t r⟩ :=
  sum_tiles 64 128 f

/-- 8192 indices as 16 tiles of 512. -/
theorem sum_tiles_16_512 {M : Type*} [AddCommMonoid M] (f : Fin 8192 → M) :
    ∑ i, f i = ∑ t : Fin 16, ∑ r : Fin 512,
      f ⟨t.val * 512 + r.val, tile_lt (n := 16) (b := 512) t r⟩ :=
  sum_tiles 16 512 f

end Cert.LibSumTiles
-- ==== Proof.TileSum.lean ====
/-
  A sum over 4096 indices taken tile by tile, and the running sums an accumulator passes through.

  The indices below 4096 are the numbers k * 512 + r with k < 8 the tile and r < 512 the place inside
  the tile, each once; so in a commutative monoid the whole sum is the sum of the eight tile sums. An
  accumulator that starts at zero and adds one tile sum per step holds, after n steps, the sum of the
  first n tiles; after the eighth step it holds the whole sum.
-/
import Mathlib.Algebra.BigOperators.Fin
import Mathlib.Algebra.BigOperators.Intervals
import proofs.«150088_j74586402063284_2_alg».proof.Proof.LibSumTiles

namespace Cert.TileSum

open scoped BigOperators

variable {M : Type*} [AddCommMonoid M]

/-- 4096 indices as 8 tiles of 512. -/
theorem sum_tiles_8_512 (g : Fin 4096 → M) :
    ∑ m, g m = ∑ k : Fin 8, ∑ r : Fin 512,
      g ⟨k.val * 512 + r.val, Cert.LibSumTiles.tile_lt (n := 8) (b := 512) k r⟩ :=
  Cert.LibSumTiles.sum_tiles 8 512 g

/-- The sum of tile k, of width b, of a summand given on all naturals. -/
def tile (b : ℕ) (g : ℕ → M) (k : ℕ) : M := ∑ r : Fin b, g (k * b + r.val)

/-- The sum of the first n tiles of width b. -/
def partialSum (b : ℕ) (g : ℕ → M) (n : ℕ) : M := ∑ k ∈ Finset.range n, tile b g k

theorem tile_def (b : ℕ) (g : ℕ → M) (k : ℕ) : tile b g k = ∑ r : Fin b, g (k * b + r.val) := rfl

theorem partialSum_def (b : ℕ) (g : ℕ → M) (n : ℕ) :
    partialSum b g n = ∑ k ∈ Finset.range n, ∑ r : Fin b, g (k * b + r.val) := rfl

/-- Before the first step the accumulator is zero. -/
theorem partialSum_zero (b : ℕ) (g : ℕ → M) : partialSum b g 0 = 0 := Finset.sum_range_zero _

/-- One step adds the next tile's sum. -/
theorem partialSum_succ (b : ℕ) (g : ℕ → M) (n : ℕ) :
    partialSum b g (n + 1) = partialSum b g n + tile b g n := Finset.sum_range_succ _ _

/-- After all n tiles the accumulator holds the sum over the whole range below n * b. -/
theorem partialSum_all (n b : ℕ) (g : ℕ → M) : partialSum b g n = ∑ m : Fin (n * b), g m.val := by
  rw [Cert.LibSumTiles.sum_tiles n b (fun m => g m.val), partialSum, Finset.sum_range]
  rfl

/-- After eight tiles of 512 the accumulator holds the sum over all 4096 indices. -/
theorem partialSum_8_512 (g : ℕ → M) : partialSum 512 g 8 = ∑ m : Fin 4096, g m.val :=
  partialSum_all 8 512 g

/-- A summand given below N, continued by zero to all naturals. -/
def extend {N : ℕ} (g : Fin N → M) : ℕ → M := fun m => if h : m < N then g ⟨m, h⟩ else 0

theorem extend_val {N : ℕ} (g : Fin N → M) (m : Fin N) : extend g m.val = g m := dif_pos m.isLt

theorem extend_of_lt {N : ℕ} (g : Fin N → M) {m : ℕ} (h : m < N) : extend g m = g ⟨m, h⟩ := dif_pos h

/-- For a summand given on the 4096 indices: eight accumulator steps over its continuation give its sum. -/
theorem partialSum_extend_8_512 (g : Fin 4096 → M) : partialSum 512 (extend g) 8 = ∑ m, g m := by
  rw [partialSum_8_512]
  exact Finset.sum_congr rfl fun m _ => extend_val g m

/-- Tile k < 8 of the continuation is the tile of the summand itself. -/
theorem tile_extend_512 (g : Fin 4096 → M) (k : Fin 8) :
    tile 512 (extend g) k.val
      = ∑ r : Fin 512, g ⟨k.val * 512 + r.val, Cert.LibSumTiles.tile_lt (n := 8) (b := 512) k r⟩ :=
  Finset.sum_congr rfl fun r _ => extend_of_lt g (Cert.LibSumTiles.tile_lt (n := 8) (b := 512) k r)

end Cert.TileSum
-- ==== Proof.NormValue.lean ====
/-
  The normalisation region's result as one function of the arrays it finds.

  The region walks the grid (i, j, k), k innermost: i the result's row tile, j its column tile, k the contraction tile.
  Position n of the walk is n = (i * 4 + j) * 8 + k, so i = n / 32, j = n / 8 % 4, k = n % 8. At (i, j, k) the body
  reads tile (k, i) of the narrow scores S (512 x 1024), tile (j, k) of the adjacency N (1024 x 512), and adds to its
  running total, at entry (p, q), the sum over the 512 places r of the tile of

      S(k * 512 + r, i * 1024 + p) * N(j * 1024 + q, k * 512 + r).

  The total restarts from zero at k = 0; after tile k it is therefore the sum of the products over the contraction
  indices m < (k + 1) * 512, and after k = 7 over all 4096 of them. At k = 7 the body divides tile (i, j) of the wide
  scores S' by the total and the quotient is written back as tile (i, j) of the result. The sixteen tiles (i, j) fill
  the result array, so it ends with entry (I, Q) at

      S'(I, Q) / Σ_m S(m, I) * N(Q, m).

  The sums are taken in the extended reals as an additive commutative monoid: only regrouping, no cancellation.
-/
import proofs.«150088_j74586402063284_2_alg».proof.Proof.RegionData
import proofs.«150088_j74586402063284_2_alg».proof.Proof.Payloads
import proofs.«150088_j74586402063284_2_alg».proof.Proof.TileSum
import Idealize.ShloMosaic.Lib.Pipeline.Value

set_option maxRecDepth 16384

noncomputable section

namespace Cert.KernelIdeal.Val

open Cert.KernelIdeal Cert.KernelIdeal.Gen Cert.KernelIdeal.Hand Cert.KernelIdeal.Payloads
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- Where grid point t sits: t = (i * 4 + j) * 8 + k with i the output's row tile, j its column tile and k the
    contraction tile. The narrow score block is tile (k, i), the wide score block and the result block are tile (i, j),
    the adjacency block is tile (j, k). -/
theorem tile_of_point : ∀ t : Fin cfg1.N, win1_0.index t 0 = t.val % 8 ∧ win1_0.index t 1 = t.val / 32
    ∧ win1_1.index t 0 = t.val / 32 ∧ win1_1.index t 1 = t.val / 8 % 4
    ∧ win1_2.index t 0 = t.val / 8 % 4 ∧ win1_2.index t 1 = t.val % 8
    ∧ win1_3.index t 0 = t.val / 32 ∧ win1_3.index t 1 = t.val / 8 % 4 :=
  (by decide +kernel : ∀ t : Fin grid1.N, _)

/-- A 4096 x 4096 array read at two natural numbers: zero outside the array. -/
def onNat (A : S4096x4096.Idx → EReal) (a b : ℕ) : EReal :=
  if h : a < 4096 ∧ b < 4096 then A (ix2 ⟨a, h.1⟩ ⟨b, h.2⟩) else 0

theorem onNat_of_lt (A : S4096x4096.Idx → EReal) {a b : ℕ} (ha : a < 4096) (hb : b < 4096) :
    onNat A a b = A (ix2 ⟨a, ha⟩ ⟨b, hb⟩) := dif_pos ⟨ha, hb⟩

theorem onNat_val (A : S4096x4096.Idx → EReal) (a b : Fin 4096) : onNat A a.val b.val = A (ix2 a b) :=
  dif_pos ⟨a.isLt, b.isLt⟩

/-- Entry (r, p) of the narrow score block at point t is entry (k * 512 + r, i * 1024 + p) of the narrow scores. -/
theorem score_block_read (c : Dev nD) (t : Fin cfg1.N) (r : Fin 512) (p : Fin 1024) :
    (iblk1 V c 0 t : Vec Ideal S512x1024 .bf16) (ix2 r p)
      = onNat (V c main_v8_0) (t.val % 8 * 512 + r.val) (t.val / 32 * 1024 + p.val) := by
  obtain ⟨e0, e1, -⟩ := tile_of_point t
  have hN : cfg1.N = 128 := N_1
  have ht : t.val < 128 := hN ▸ t.isLt
  rw [onNat_of_lt _ (by omega) (by omega)]
  unfold iblk1
  rw [View.read_apply]
  show V c main_v8_0 _ = V c main_v8_0 _
  congr 1
  funext a
  apply Fin.ext
  match a with
  | ⟨0, _⟩ => show win1_0.index t 0 * 512 + 1 * r.val = _; rw [e0]; show _ = t.val % 8 * 512 + r.val; omega
  | ⟨1, _⟩ => show win1_0.index t 1 * 1024 + 1 * p.val = _; rw [e1]; show _ = t.val / 32 * 1024 + p.val; omega

/-- Entry (p, q) of the wide score block at point t is entry (i * 1024 + p, j * 1024 + q) of the wide scores. -/
theorem wide_score_block_read (c : Dev nD) (t : Fin cfg1.N) (p q : Fin 1024) :
    (iblk1 V c 1 t : Vec Ideal S1024x1024 .f32) (ix2 p q)
      = onNat (V c main_v8_1) (t.val / 32 * 1024 + p.val) (t.val / 8 % 4 * 1024 + q.val) := by
  obtain ⟨-, -, e0, e1, -⟩ := tile_of_point t
  have hN : cfg1.N = 128 := N_1
  have ht : t.val < 128 := hN ▸ t.isLt
  rw [onNat_of_lt _ (by omega) (by omega)]
  unfold iblk1
  rw [View.read_apply]
  show V c main_v8_1 _ = V c main_v8_1 _
  congr 1
  funext a
  apply Fin.ext
  match a with
  | ⟨0, _⟩ => show win1_1.index t 0 * 1024 + 1 * p.val = _; rw [e0]; show _ = t.val / 32 * 1024 + p.val; omega
  | ⟨1, _⟩ => show win1_1.index t 1 * 1024 + 1 * q.val = _; rw [e1]; show _ = t.val / 8 % 4 * 1024 + q.val; omega

/-- Entry (q, r) of the adjacency block at point t is entry (j * 1024 + q, k * 512 + r) of the adjacency. -/
theorem adjacency_block_read (c : Dev nD) (t : Fin cfg1.N) (q : Fin 1024) (r : Fin 512) :
    (iblk1 V c 2 t : Vec Ideal S1024x512 .bf16) (ix2 q r)
      = onNat (V c main_v9) (t.val / 8 % 4 * 1024 + q.val) (t.val % 8 * 512 + r.val) := by
  obtain ⟨-, -, -, -, e0, e1, -⟩ := tile_of_point t
  have hN : cfg1.N = 128 := N_1
  have ht : t.val < 128 := hN ▸ t.isLt
  rw [onNat_of_lt _ (by omega) (by omega)]
  unfold iblk1
  rw [View.read_apply]
  show V c main_v9 _ = V c main_v9 _
  congr 1
  funext a
  apply Fin.ext
  match a with
  | ⟨0, _⟩ => show win1_2.index t 0 * 1024 + 1 * q.val = _; rw [e0]; show _ = t.val / 8 % 4 * 1024 + q.val; omega
  | ⟨1, _⟩ => show win1_2.index t 1 * 512 + 1 * r.val = _; rw [e1]; show _ = t.val % 8 * 512 + r.val; omega

/-- The product summed over the contraction index m, for the output entry (P, Q): narrow score (m, P) times adjacency (Q, m). -/
def term (S N : S4096x4096.Idx → EReal) (P Q : ℕ) (m : ℕ) : EReal := onNat S m P * onNat N Q m

/-- THE RUNNING TOTAL after position n = (i * 4 + j) * 8 + k, at entry (p, q) of the tile: the sum of the products over
    the contraction tiles 0..k, for the output entry (i * 1024 + p, j * 1024 + q). -/
theorem total_after_tile (c : Dev nD) : ∀ (n : ℕ) (hn : n < cfg1.N) (p q : Fin 1024),
    accAt V c n hn (ix2 p q)
      = Cert.TileSum.partialSum 512 (term (V c main_v8_0) (V c main_v9) (n / 32 * 1024 + p.val) (n / 8 % 4 * 1024 + q.val)) (n % 8 + 1) := by
  intro n
  induction n using Nat.strong_induction_on with
  | _ n ih =>
    intro hn p q
    by_cases h : n % 8 = 0
    · have e := accAt_first V c ⟨n, hn⟩ h
      rw [show accAt V c n hn = accAt V c (⟨n, hn⟩ : Fin cfg1.N).val (⟨n, hn⟩ : Fin cfg1.N).isLt from rfl, e,
        k1_pay2_apply, k1_pay1_apply, h, Cert.TileSum.partialSum_succ, Cert.TileSum.partialSum_zero, Cert.TileSum.tile_def]
      refine congrArg _ (Finset.sum_congr rfl fun r _ => ?_)
      rw [score_block_read, adjacency_block_read]
      show _ = onNat _ _ _ * onNat _ _ _
      rw [show (⟨n, hn⟩ : Fin cfg1.N).val = n from rfl, h]
    · have e := accAt_next V c ⟨n, hn⟩ h
      have hN : cfg1.N = 128 := N_1
      rw [show accAt V c n hn = accAt V c (⟨n, hn⟩ : Fin cfg1.N).val (⟨n, hn⟩ : Fin cfg1.N).isLt from rfl, e,
        k1_pay2_apply]
      rw [show accAt V c ((⟨n, hn⟩ : Fin cfg1.N).val - 1) _ = accAt V c (n - 1) (by omega) from rfl,
        ih (n - 1) (by omega) (by omega) p q]
      rw [show (n - 1) / 32 = n / 32 from by omega, show (n - 1) / 8 % 4 = n / 8 % 4 from by omega,
        show (n - 1) % 8 + 1 = n % 8 from by omega, Cert.TileSum.partialSum_succ, Cert.TileSum.tile_def]
      refine congrArg _ (Finset.sum_congr rfl fun r _ => ?_)
      rw [score_block_read, adjacency_block_read]
      rfl

/-- THE RESULT: the wide score over the neighbour sum — entry (I, Q) is S'(I, Q) / Σ_m S(m, I) · N(Q, m). -/
def normalised (S S' N : S4096x4096.Idx → EReal) : S4096x4096.Idx → EReal :=
  fun x => Ideal.div (S' x) (∑ m : Fin 4096, S (ix2 m (x 0)) * N (ix2 (x 1) m))

/-- The result at an entry given by two natural numbers inside the array. -/
theorem normalised_at (S S' N : S4096x4096.Idx → EReal) {P Q : ℕ} (hP : P < 4096) (hQ : Q < 4096) :
    normalised S S' N (ix2 ⟨P, hP⟩ ⟨Q, hQ⟩)
      = Ideal.div (onNat S' P Q) (∑ m : Fin 4096, term S N P Q m.val) := by
  rw [onNat_of_lt S' hP hQ]
  show Ideal.div _ (∑ m : Fin 4096, S (ix2 m ⟨P, hP⟩) * N (ix2 ⟨Q, hQ⟩ m)) = _
  refine congrArg _ (Finset.sum_congr rfl fun m _ => ?_)
  show _ = onNat S m.val P * onNat N Q m.val
  rw [onNat_of_lt S m.isLt hP, onNat_of_lt N hQ m.isLt]

/-- What the last contraction tile (k = 7) leaves in the result window at entry (p, q): the wide score over the
    whole neighbour sum, for the output entry (i * 1024 + p, j * 1024 + q). -/
theorem result_entry (c : Dev nD) (t : Fin cfg1.N) (h : t.val % 8 = 7) (p q : Fin 1024) :
    k1_pay3 (F := Ideal) (iblk1 V c 1 t) (accAt V c t.val t.isLt) (ix2 p q)
      = Ideal.div (onNat (V c main_v8_1) (t.val / 32 * 1024 + p.val) (t.val / 8 % 4 * 1024 + q.val))
          (∑ m : Fin 4096, term (V c main_v8_0) (V c main_v9) (t.val / 32 * 1024 + p.val) (t.val / 8 % 4 * 1024 + q.val) m.val) := by
  rw [k1_pay3_apply, wide_score_block_read, total_after_tile, h, Cert.TileSum.partialSum_8_512]

/-- Entry (p, q) of the result block at point t is entry (i * 1024 + p, j * 1024 + q) of the result array. -/
theorem result_block_index (t : Fin cfg1.N) (p q : Fin 1024) (hP : t.val / 32 * 1024 + p.val < 4096)
    (hQ : t.val / 8 % 4 * 1024 + q.val < 4096) :
    ((cfg1.win 3).blk t).view.emb (ix2 p q)
      = (ix2 ⟨t.val / 32 * 1024 + p.val, hP⟩ ⟨t.val / 8 % 4 * 1024 + q.val, hQ⟩ : S4096x4096.Idx) := by
  obtain ⟨-, -, -, -, -, -, e0, e1⟩ := tile_of_point t
  funext a
  apply Fin.ext
  match a with
  | ⟨0, _⟩ => show win1_3.index t 0 * 1024 + 1 * p.val = _; rw [e0]; show _ = t.val / 32 * 1024 + p.val; omega
  | ⟨1, _⟩ => show win1_3.index t 1 * 1024 + 1 * q.val = _; rw [e1]; show _ = t.val / 8 % 4 * 1024 + q.val; omega

/-- WHAT A LAST-TILE POINT WRITES BACK is its block of the result. -/
theorem result_block (c : Dev nD) (t : Fin cfg1.N) (h : t.val % 8 = 7) :
    (dat1 (F := Ideal) V c).flushed 3 t
      = ((cfg1.win 3).blk t).view.read (Elt Ideal) (normalised (V c main_v8_0) (V c main_v8_1) (V c main_v9)) := by
  have hN : cfg1.N = 128 := N_1
  have ht : t.val < 128 := hN ▸ t.isLt
  show (cfg1.win 3).cut (grid1.coords t) ((dat1 V c).after 3 t) = _
  rw [after1_3]
  funext j
  obtain ⟨p, q, rfl⟩ : ∃ p q : Fin 1024, j = ix2 p q := ⟨j 0, j 1, eq_ix2 j⟩
  rw [View.read_apply]
  show k1_pay3 (F := Ideal) (iblk1 V c 1 t) (accAt V c t.val t.isLt) (ix2 p q) = normalised _ _ _ (((cfg1.win 3).blk t).view.emb (ix2 p q))
  rw [result_entry V c t h, result_block_index t p q (by omega) (by omega), normalised_at]

/-- An index of the result array is in point t's block iff each coordinate is in the block's range on its axis. -/
theorem mem_result_block (t : Fin cfg1.N) (i : S4096x4096.Idx) :
    i ∈ ((cfg1.win 3).blk t).view.set ↔ ∀ a : Fin 2, win1_3.index t a * S1024x1024.size a ≤ (i a).val
      ∧ (i a).val < win1_3.index t a * S1024x1024.size a + S1024x1024.size a := by
  show i ∈ ((View.whole main_v10).slice (win1_3.rect t)).set ↔ _
  rw [View.set_slice_whole, Rect.mem_set_unit]
  exact Iff.rfl

/-- Every entry (I, Q) of the result array lies in the block of the last contraction tile of its output tile, the point
    ((I / 1024) * 4 + Q / 1024) * 8 + 7. -/
theorem covered_by_last_tile (i : S4096x4096.Idx) :
    ∃ t : Fin cfg1.N, (cfg1.win 3).flush t = true ∧ i ∈ ((cfg1.win 3).blk t).view.set := by
  have hN : cfg1.N = 128 := N_1
  have hi0 : (i 0).val < 4096 := (i 0).isLt
  have hi1 : (i 1).val < 4096 := (i 1).isLt
  have hlt : ((i 0).val / 1024 * 4 + (i 1).val / 1024) * 8 + 7 < cfg1.N := by rw [hN]; omega
  refine ⟨⟨((i 0).val / 1024 * 4 + (i 1).val / 1024) * 8 + 7, hlt⟩, (flush1_3 _).mpr ?_, ?_⟩
  · show (((i 0).val / 1024 * 4 + (i 1).val / 1024) * 8 + 7) % 8 = 7
    omega
  · rw [mem_result_block]
    obtain ⟨-, -, -, -, -, -, e0, e1⟩ := tile_of_point ⟨((i 0).val / 1024 * 4 + (i 1).val / 1024) * 8 + 7, hlt⟩
    intro a
    match a with
    | ⟨0, _⟩ =>
      show win1_3.index _ 0 * 1024 ≤ (i 0).val ∧ (i 0).val < win1_3.index _ 0 * 1024 + 1024
      rw [e0]
      show (((i 0).val / 1024 * 4 + (i 1).val / 1024) * 8 + 7) / 32 * 1024 ≤ (i 0).val
        ∧ (i 0).val < (((i 0).val / 1024 * 4 + (i 1).val / 1024) * 8 + 7) / 32 * 1024 + 1024
      omega
    | ⟨1, _⟩ =>
      show win1_3.index _ 1 * 1024 ≤ (i 1).val ∧ (i 1).val < win1_3.index _ 1 * 1024 + 1024
      rw [e1]
      show (((i 0).val / 1024 * 4 + (i 1).val / 1024) * 8 + 7) / 8 % 4 * 1024 ≤ (i 1).val
        ∧ (i 1).val < (((i 0).val / 1024 * 4 + (i 1).val / 1024) * 8 + 7) / 8 % 4 * 1024 + 1024
      omega

/-- THE RESULT ARRAY after the region: entry (I, Q) is the wide score S'(I, Q) over the neighbour sum
    Σ_m S(m, I) · N(Q, m), S the narrow scores and N the adjacency as the region finds them. -/
theorem norm_array (c : Dev nD) (S S' N : S4096x4096.Idx → EReal) (h0 : V c main_v8_0 = S) (h1 : V c main_v8_1 = S')
    (h2 : V c main_v9 = N) :
    (dat1 (F := Ideal) V c).arrAt 3 cfg1.N
      = fun x => Ideal.div (S' x) (∑ m : Fin 4096, S (ix2 m (x 0)) * N (ix2 (x 1) m)) := by
  subst h0 h1 h2
  exact (dat1 (F := Ideal) V c).arrAt_eq_of_cover 3 (normalised (V c main_v8_0) (V c main_v8_1) (V c main_v9))
    (fun t hf => result_block V c t ((flush1_3 t).mp hf)) covered_by_last_tile

end Cert.KernelIdeal.Val

end
-- ==== Proof.KernelValue.lean ====
/-
  The kernel side's result as ONE function of the four argument arrays.

  The first host stretch leaves the scaled queries and keys; region 0 leaves, in both of its arrays, the score
  S(i,j) = exp (sum over d of q(d,i) * k(d,j)); the second host stretch leaves the adjacency; region 1 leaves
  S(i,j) / (sum over m of S(m,i) * nbr(j,m)). The specification's neighbour sum has the two factors of every term in
  the other order, and multiplication of extended reals is commutative.
-/
import proofs.«150088_j74586402063284_2_alg».proof.Proof.HostValue
import proofs.«150088_j74586402063284_2_alg».proof.Proof.ScoreValue
import proofs.«150088_j74586402063284_2_alg».proof.Proof.NormValue
import proofs.«150088_j74586402063284_2_alg».proof.Proof.Contents
import proofs.«150088_j74586402063284_2_alg».proof.Proof.Spec

noncomputable section

open scoped BigOperators

namespace Cert.KernelIdeal.Val

open Cert.KernelIdeal Cert.KernelIdeal.Gen Cert.KernelIdeal.Hand Idealize.ShloMosaic Idealize.ShloMosaic.ValueIdx

variable (m : (ℓ : Loc nD τ sig) → Buf (Elt Ideal) ℓ) (ρ : Dev nD → PrngReg) (c : Dev nD)

/-- With the scaled queries and keys as the two inputs, the exponential of the blockwise inner product is the
    specification's score. -/
theorem exp_scaled_eq_score (f : Cert.Spec.SF.Idx → EReal) (wq wk : Cert.Spec.SW.Idx → EReal) :
    (fun x : S4096x4096.Idx => Ideal.exp (∑ d : Fin 128,
        (fun i : S128x4096.Idx => Cert.Spec.scaled f wq (i 0) (i 1)) (ix2 d (x 0))
          * (fun i : S128x4096.Idx => Cert.Spec.scaled f wk (i 0) (i 1)) (ix2 d (x 1))))
      = fun x => Cert.Spec.score f wq wk (x 0) (x 1) := by
  funext x; rfl

/-- The result array region 1 leaves is the specification's, as a function of the four argument arrays: both score
    arrays are the score, so the quotient's numerator is the score and its denominator the neighbour sum with the two
    factors of every term in the other order. -/
theorem kernel_value : (dat1 (Hand.V3 m ρ) c).arrAt 3 cfg1.N = Cert.Spec.G (m ((c.tc : Thread nD τ).loc main_arg0)) (m ((c.tc : Thread nD τ).loc main_arg1)) (m ((c.tc : Thread nD τ).loc main_arg2)) (m ((c.tc : Thread nD τ).loc main_arg3)) := by
  have h2 := (entry_scores_narrow m ρ c).trans
    ((score_array2 (Hand.V1 m ρ) c _ _ (scaled_queries m ρ c) (scaled_keys m ρ c)).trans (exp_scaled_eq_score _ _ _))
  have h3 := (entry_scores_wide m ρ c).trans
    ((score_array3 (Hand.V1 m ρ) c _ _ (scaled_queries m ρ c) (scaled_keys m ρ c)).trans (exp_scaled_eq_score _ _ _))
  rw [norm_array (Hand.V3 m ρ) c _ _ _ h2 h3 (entry_adjacency m ρ c)]
  funext x
  unfold Cert.Spec.G Cert.Spec.nbrSum
  exact congrArg (Ideal.div _) (Finset.sum_congr rfl fun k _ => mul_comm _ _)

end Cert.KernelIdeal.Val

end
-- ==== Proof.RefValue.lean ====
/-
  The reference's result as the specification: with q(d,i) = wq(d) * f(d,i) and k(d,j) = wk(d) * f(d,j),
  the reference forms the score S(i,j) = exp (sum over d of q(d,i) * k(d,j)), multiplies the adjacency
  against the scores, (nbr * S)(j,i) = sum over m of nbr(j,m) * S(m,i), transposes that product and divides:
  the element (i,j) of the result is S(i,j) / (nbr * S)(j,i) = S(i,j) / D(i,j), the specification's G.
-/
import proofs.«150088_j74586402063284_2_alg».proof.Defs
import proofs.«150088_j74586402063284_2_alg».proof.Proof.Spec
import proofs.«150088_j74586402063284_2_alg».proof.Proof.Gen.ReferenceIdeal
import proofs.«150088_j74586402063284_2_alg».proof.Proof.Gen.Pre_finite_inputs
import proofs.«150088_j74586402063284_2_alg».proof.Proof.Gen.ReferenceIdeal.Run
import proofs.«150088_j74586402063284_2_alg».proof.Proof.Gen.ReferenceIdeal.Read

noncomputable section

open scoped BigOperators

namespace Cert.RefValue

open Idealize.ShloMosaic Idealize.ShloMosaic.TcCoe Idealize.SL.Sem Idealize.ShloMosaic.ValueIdx
open Cert.ReferenceIdeal Cert.ReferenceIdeal.Gen Cert.ReferenceIdeal.Read

variable (x0 : (⟨S128x4096, .f32⟩ : BufTy).Contents (Elt Ideal)) (x1 : (⟨S4096x4096, .f32⟩ : BufTy).Contents (Elt Ideal))
  (x2 x3 : (⟨S128, .f32⟩ : BufTy).Contents (Elt Ideal))

/-- The query side: the feature array scaled row by row by the first weight vector. -/
theorem v2_at (d : Fin 128) (p : Fin 4096) :
    val_main_v2 (F := Ideal) x0 x2 (ix2 d p) = Cert.Spec.scaled x0 x2 d p := by
  rw [val_main_v2_apply, val_main_v1_apply, val_main_v0_apply]
  have h : idx_main_v0 (idx_main_v1 (ix2 d p)) = ix1 d := funext fun a => match a with
    | ⟨0, _⟩ => rfl
  rw [h]
  rfl

/-- The key side: the feature array scaled row by row by the second weight vector. -/
theorem v5_at (d : Fin 128) (p : Fin 4096) :
    val_main_v5 (F := Ideal) x0 x3 (ix2 d p) = Cert.Spec.scaled x0 x3 d p := by
  rw [val_main_v5_apply, val_main_v4_apply, val_main_v3_apply]
  have h : idx_main_v3 (idx_main_v4 (ix2 d p)) = ix1 d := funext fun a => match a with
    | ⟨0, _⟩ => rfl
  rw [h]
  rfl

/-- The inner products of the scaled queries of node p with the scaled keys of node q. -/
theorem v6_at (p q : Fin 4096) :
    val_main_v6 (F := Ideal) x0 x2 x3 (ix2 p q)
      = ∑ d : Fin 128, Cert.Spec.scaled x0 x2 d p * Cert.Spec.scaled x0 x3 d q := by
  rw [val_main_v6_apply]
  refine Finset.sum_congr rfl fun d _ => ?_
  have hl : lidx_main_v6 (ix2 p q) d = ix2 d p := funext fun a => match a with
    | ⟨0, _⟩ => rfl
    | ⟨1, _⟩ => rfl
  have hr : ridx_main_v6 (ix2 p q) d = ix2 d q := funext fun a => match a with
    | ⟨0, _⟩ => rfl
    | ⟨1, _⟩ => rfl
  rw [hl, hr, v2_at, v5_at]

/-- The scores. -/
theorem v7_at (p q : Fin 4096) :
    val_main_v7 (F := Ideal) x0 x2 x3 (ix2 p q) = Cert.Spec.score x0 x2 x3 p q := by
  rw [val_main_v7_apply, v6_at]
  rfl

/-- The transposed product of the adjacency with the scores: at (p,q) it is row q of the adjacency against
    column p of the scores. -/
theorem v9_at (p q : Fin 4096) :
    val_main_v9 (F := Ideal) x0 x1 x2 x3 (ix2 p q) = Cert.Spec.nbrSum x0 x1 x2 x3 p q := by
  rw [val_main_v9_apply, val_main_v8_apply]
  refine Finset.sum_congr rfl fun m _ => ?_
  have hl : lidx_main_v8 (idx_main_v9 (ix2 p q)) m = ix2 q m := funext fun a => match a with
    | ⟨0, _⟩ => rfl
    | ⟨1, _⟩ => rfl
  have hr : ridx_main_v8 (idx_main_v9 (ix2 p q)) m = ix2 m p := funext fun a => match a with
    | ⟨0, _⟩ => rfl
    | ⟨1, _⟩ => rfl
  rw [hl, hr, v7_at]

/-- The reference's result is the specification G of its four arguments. -/
theorem ref_eq :
    Cert.ReferenceIdeal.Read.val_main_v10 (F := Ideal) x0 x1 x2 x3 = Cert.Spec.G x0 x1 x2 x3 := by
  funext i
  obtain ⟨p, q, rfl⟩ : ∃ (p q : Fin 4096), i = ix2 p q := ⟨i 0, i 1, eq_ix2 i⟩
  rw [val_main_v10_apply, v7_at, v9_at, Cert.Spec.G_apply]
  rfl

/-- The reference runs and leaves its arguments unchanged. -/
theorem frame_ri : Cert.frame_ReferenceIdeal := fun m ρ _ =>
  (θ_run Cert.ReferenceIdeal.defs _ _).mono (fun _ h c => (h c).2) (Cert.ReferenceIdeal.Value.run (F := Ideal) m ρ)

/-- The reference runs, ends with its result at G of its launch arguments, and leaves the arguments unchanged. -/
theorem ref_run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩
      (fun r => ∀ c : Dev Cert.ReferenceIdeal.nD,
        r.2.mem ((c.tc : Thread Cert.ReferenceIdeal.nD Cert.ReferenceIdeal.τ).loc Cert.ReferenceIdeal.main_v10)
            = Cert.Spec.G (m' ((c.tc : Thread Cert.ReferenceIdeal.nD Cert.ReferenceIdeal.τ).loc Cert.ReferenceIdeal.main_arg0))
                (m' ((c.tc : Thread Cert.ReferenceIdeal.nD Cert.ReferenceIdeal.τ).loc Cert.ReferenceIdeal.main_arg1))
                (m' ((c.tc : Thread Cert.ReferenceIdeal.nD Cert.ReferenceIdeal.τ).loc Cert.ReferenceIdeal.main_arg2))
                (m' ((c.tc : Thread Cert.ReferenceIdeal.nD Cert.ReferenceIdeal.τ).loc Cert.ReferenceIdeal.main_arg3))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)) :=
  (θ_run Cert.ReferenceIdeal.defs _ _).mono
    (fun _ h c => ⟨(h c).1.trans ((val_main_v10_eq (F := Ideal) _ _ _ _).trans (ref_eq _ _ _ _)), (h c).2⟩)
    (Cert.ReferenceIdeal.Value.run (F := Ideal) m' ρ')

end Cert.RefValue

end
-- ==== Proof.lean ====
/-
  The kernel against its reference: for features f, adjacency nbr and weight vectors wq, wk both programs compute

      out(i,j) = S(i,j) / D(i,j),   S(i,j) = exp (sum over d of (wq(d) f(d,i)) (wk(d) f(d,j))),
                                     D(i,j) = sum over m of nbr(j,m) S(m,i)

  on the extended reals (Spec.lean).  The reference does it with two whole matrix products on the host.  The kernel does
  it in two regions: the first writes the score matrix tile by tile; the second forms D tile by tile, adding the
  products of eight contraction tiles into a scratch buffer that restarts at the first of them, and divides the score
  tile by the total at the last.  At the ideal instance a change of float format is the identity, a matrix product is
  a plain sum, and the extended reals' addition is associative and commutative, so the total of the eight tiles is
  the whole sum; their multiplication is commutative, which accounts for the kernel's S(m,i) nbr(j,m) against the
  reference's nbr(j,m) S(m,i).  No finiteness is needed for any of this.

  Frames: the reference's is its run with the result dropped.  Each kernel program's is the run of its four
  segments (host stretch, region, host stretch, region) read at the argument arrays, which no host operation and no
  region writes; the word-level program and its idealization are the same text, so the same proof serves both,
  once in each program's names.  The idealization rewrote nothing, so there is nothing to preserve.
-/
import proofs.«150088_j74586402063284_2_alg».proof.Defs
import proofs.«150088_j74586402063284_2_alg».proof.Proof.Gen.Kernel
import proofs.«150088_j74586402063284_2_alg».proof.Proof.Gen.KernelIdeal
import proofs.«150088_j74586402063284_2_alg».proof.Proof.Gen.ReferenceIdeal
import proofs.«150088_j74586402063284_2_alg».proof.Proof.Gen.Pre_finite_inputs
import proofs.«150088_j74586402063284_2_alg».proof.Proof.Gen.ReferenceIdeal.Read
import proofs.«150088_j74586402063284_2_alg».proof.Proof.RunBits
import proofs.«150088_j74586402063284_2_alg».proof.Proof.ScoreBodyBits
import proofs.«150088_j74586402063284_2_alg».proof.Proof.EdgeNormBodyBits
import proofs.«150088_j74586402063284_2_alg».proof.Proof.Run
import proofs.«150088_j74586402063284_2_alg».proof.Proof.ScoreBody
import proofs.«150088_j74586402063284_2_alg».proof.Proof.EdgeNormBody
import proofs.«150088_j74586402063284_2_alg».proof.Proof.KernelValue
import proofs.«150088_j74586402063284_2_alg».proof.Proof.RefValue
import Idealize.ShloMosaic.Adequacy
import Idealize.ShloMosaic.Init

noncomputable section

namespace Cert.Proof

open Idealize.ShloMosaic Idealize.SL.Sem

/-- The word-level kernel runs to the end, faults nowhere and leaves its arguments as launched. -/
theorem frame_k : Cert.frame_Kernel := fun m ρ _ =>
  Cert.Kernel.Hand.frame m ρ (fun V c => Cert.Kernel.Hand.body_obligation0 V c) (fun V c => Cert.Kernel.Hand.body_obligation1 V c)

/-- So does its idealization. -/
theorem frame_ki : Cert.frame_KernelIdeal := fun m ρ _ =>
  Cert.KernelIdeal.Hand.frame m ρ (fun V c => Cert.KernelIdeal.Hand.body_obligation0 V c) (fun V c => Cert.KernelIdeal.Hand.body_obligation1 V c)

/-- The idealization rewrote no operation. -/
theorem preserves : Cert.preserves_Kernel_KernelIdeal := trivial

/-- From memories that agree on the arguments both idealized programs end with the result array at the one function
    `Spec.G` of the arguments. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.Val.kernel_value m ρ c), (h c).2⟩)
      (Cert.KernelIdeal.Hand.run_value m ρ (fun V c => Cert.KernelIdeal.Hand.body_obligation0 V c)
        (fun V c => Cert.KernelIdeal.Hand.body_obligation1 V c))
  · refine (θ_run Cert.ReferenceIdeal.defs _ _).mono (fun r h c => ⟨(h c).1.trans ?_, (h c).2⟩)
      (Cert.RefValue.ref_run m' ρ')
    rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, Cert.RefValue.frame_ri, preserves, algebraic⟩

end Cert.Proof

end
